-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096x128 : Shape := ⟨3, ![32, 4096, 128]⟩
abbrev S2x24576 : Shape := ⟨2, ![2, 24576]⟩
abbrev S1x256 : Shape := ⟨2, ![1, 256]⟩
abbrev S1 : Shape := ⟨1, ![1]⟩
abbrev S_ : Shape := ⟨0, ![]⟩

class Facts : Prop where
  bcast_S_S32x4096x128 : S_.BroadcastsInDim S32x4096x128 (![] : Fin 0 → Fin S32x4096x128.rank)
  reducesTo_S32x4096x128_S_d0_1_2 : S32x4096x128.ReducesTo [0, 1, 2] S_
  h_S_ : 0 < S_.numel
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_
  bcast_S_S2x24576 : S_.BroadcastsInDim S2x24576 (![] : Fin 0 → Fin S2x24576.rank)
  reducesTo_S2x24576_S_d0_1 : S2x24576.ReducesTo [0, 1] S_

variable [Facts]

def fn_part1 {F : FTy → Type} [FloatOps F] (main_arg1 : IVec S2x24576 32) (main_v13 : IVec S_ 1) (main_v15 : IVec S2x24576 1) (main_c_5 : IVec S_ 1) : IVec S_ 1 :=
  let main_v16 : IVec S_ 1 := (fun x v => Host.reduce IntOp.andi x v reducesTo_S2x24576_S_d0_1 h_S_) main_v15 main_c_5
  let main_v17 : IVec S_ 1 := andi main_v13 main_v16
  let main_c_6 : IVec S_ 32 := constantI S_ 32 4096#32
  let main_v18 : IVec S2x24576 32 := broadcastInDim S2x24576 ![] bcast_S_S2x24576 main_c_6
  let main_v19 : IVec S2x24576 1 := cmpi .slt main_arg1 main_v18
  let main_c_7 : IVec S_ 1 := constantI S_ 1 1#1
  let main_v20 : IVec S_ 1 := (fun x v => Host.reduce IntOp.andi x v reducesTo_S2x24576_S_d0_1 h_S_) main_v19 main_c_7
  let main_v21 : IVec S_ 1 := andi main_v17 main_v20
  main_v21

def fn {F : FTy → Type} [FloatOps F] (main_arg0 : FVec F S32x4096x128 .f32) (main_arg1 : IVec S2x24576 32) (main_arg2 : FVec F S1x256 .f32) (main_arg3 : FVec F S1 .f32) : IVec S_ 1 :=
  let main_v0 : FVec F S32x4096x128 .f32 := Host.absf main_arg0
  let main_cst : FVec F S_ .f32 := constant S_ .f32 0x7F800000#32
  let main_v1 : FVec F S32x4096x128 .f32 := broadcastInDim S32x4096x128 ![] bcast_S_S32x4096x128 main_cst
  let main_v2 : IVec S32x4096x128 1 := cmpf .olt main_v0 main_v1
  let main_c : IVec S_ 1 := constantI S_ 1 1#1
  let main_v3 : IVec S_ 1 := (fun x v => Host.reduce IntOp.andi x v reducesTo_S32x4096x128_S_d0_1_2 h_S_) main_v2 main_c
  let main_v4 : FVec F S1x256 .f32 := Host.absf main_arg2
  let main_cst_0 : FVec F S_ .f32 := constant S_ .f32 0x7F800000#32
  let main_v5 : FVec F S1x256 .f32 := broadcastInDim S1x256 ![] bcast_S_S1x256 main_cst_0
  let main_v6 : IVec S1x256 1 := cmpf .olt main_v4 main_v5
  let main_c_1 : IVec S_ 1 := constantI S_ 1 1#1
  let main_v7 : IVec S_ 1 := (fun x v => Host.reduce IntOp.andi x v reducesTo_S1x256_S_d0_1 h_S_) main_v6 main_c_1
  let main_v8 : IVec S_ 1 := andi main_v3 main_v7
  let main_v9 : FVec F S1 .f32 := Host.absf main_arg3
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_c_4 : IVec S_ 32 := constantI S_ 32 0#32
  let main_v14 : IVec S2x24576 32 := broadcastInDim S2x24576 ![] bcast_S_S2x24576 main_c_4
  let main_v15 : IVec S2x24576 1 := cmpi .sge main_arg1 main_v14
  let main_c_5 : IVec S_ 1 := constantI S_ 1 1#1
  fn_part1 (F := F) main_arg1 main_v13 main_v15 main_c_5
-- ==== Kernel.lean ====
abbrev S32x4096x128 : Shape := ⟨3, ![32, 4096, 128]⟩
abbrev S2x24576 : Shape := ⟨2, ![2, 24576]⟩
abbrev S1x256 : Shape := ⟨2, ![1, 256]⟩
abbrev S1 : Shape := ⟨1, ![1]⟩
abbrev S1x24576 : Shape := ⟨2, ![1, 24576]⟩
abbrev S24576 : Shape := ⟨1, ![24576]⟩
abbrev S1x128 : Shape := ⟨2, ![1, 128]⟩
abbrev S32x4096 : Shape := ⟨2, ![32, 4096]⟩
abbrev S32x256x128 : Shape := ⟨3, ![32, 256, 128]⟩
abbrev S32x256 : Shape := ⟨2, ![32, 256]⟩
abbrev S128 : Shape := ⟨1, ![128]⟩
abbrev S1x1x128 : Shape := ⟨3, ![1, 1, 128]⟩
abbrev S_ : Shape := ⟨0, ![]⟩
abbrev S24576x1 : Shape := ⟨2, ![24576, 1]⟩
abbrev S1x1 : Shape := ⟨2, ![1, 1]⟩
abbrev S32x24576 : Shape := ⟨2, ![32, 24576]⟩
abbrev S32x24576x128 : Shape := ⟨3, ![32, 24576, 128]⟩
abbrev S32x256x1 : Shape := ⟨3, ![32, 256, 1]⟩

abbrev nBuf : Space → Nat
  | .hbm => 97
  | .vmem => 14
  | .smem => 0
  | _ => 0

abbrev bufTy : (tb : Table) → Fin (tcTables nBuf tb) → BufTy
  | .hbm, ⟨0, _⟩ => ⟨S32x4096x128, .f32⟩
  | .hbm, ⟨1, _⟩ => ⟨S2x24576, .i32⟩
  | .hbm, ⟨2, _⟩ => ⟨S1x256, .f32⟩
  | .hbm, ⟨3, _⟩ => ⟨S1, .f32⟩
  | .hbm, ⟨4, _⟩ => ⟨S1x24576, .i32⟩
  | .hbm, ⟨5, _⟩ => ⟨S24576, .i32⟩
  | .hbm, ⟨6, _⟩ => ⟨S1x24576, .i32⟩
  | .hbm, ⟨7, _⟩ => ⟨S24576, .i32⟩
  | .hbm, ⟨8, _⟩ => ⟨S1x128, .f32⟩
  | .hbm, ⟨9, _⟩ => ⟨S1x128, .f32⟩
  | .hbm, ⟨10, _⟩ => ⟨S32x4096, .f32⟩
  | .hbm, ⟨11, _⟩ => ⟨S32x4096, .f32⟩
  | .hbm, ⟨12, _⟩ => ⟨S_, .i32⟩
  | .hbm, ⟨13, _⟩ => ⟨S24576, .i32⟩
  | .hbm, ⟨14, _⟩ => ⟨S24576, .i1⟩
  | .hbm, ⟨15, _⟩ => ⟨S_, .i32⟩
  | .hbm, ⟨16, _⟩ => ⟨S24576, .i32⟩
  | .hbm, ⟨17, _⟩ => ⟨S24576, .i32⟩
  | .hbm, ⟨18, _⟩ => ⟨S24576, .i32⟩
  | .hbm, ⟨19, _⟩ => ⟨S24576x1, .i32⟩
  | .hbm, ⟨20, _⟩ => ⟨S1, .i32⟩
  | .hbm, ⟨21, _⟩ => ⟨S_, .i32⟩
  | .hbm, ⟨22, _⟩ => ⟨S24576x1, .i32⟩
  | .hbm, ⟨23, _⟩ => ⟨S24576x1, .i1⟩
  | .hbm, ⟨24, _⟩ => ⟨S1x1, .i32⟩
  | .hbm, ⟨25, _⟩ => ⟨S24576x1, .i32⟩
  | .hbm, ⟨26, _⟩ => ⟨S24576x1, .i1⟩
  | .hbm, ⟨27, _⟩ => ⟨S24576x1, .i1⟩
  | .hbm, ⟨28, _⟩ => ⟨S_, .i1⟩
  | .hbm, ⟨29, _⟩ => ⟨S24576, .i1⟩
  | .hbm, ⟨30, _⟩ => ⟨S32x24576, .f32⟩
  | .hbm, ⟨31, _⟩ => ⟨S32x24576, .i1⟩
  | .hbm, ⟨32, _⟩ => ⟨S_, .f32⟩
  | .hbm, ⟨33, _⟩ => ⟨S32x24576, .f32⟩
  | .hbm, ⟨34, _⟩ => ⟨S32x24576, .f32⟩
  | .hbm, ⟨35, _⟩ => ⟨S_, .i32⟩
  | .hbm, ⟨36, _⟩ => ⟨S24576, .i32⟩
  | .hbm, ⟨37, _⟩ => ⟨S24576, .i1⟩
  | .hbm, ⟨38, _⟩ => ⟨S_, .i32⟩
  | .hbm, ⟨39, _⟩ => ⟨S24576, .i32⟩
  | .hbm, ⟨40, _⟩ => ⟨S24576, .i32⟩
  | .hbm, ⟨41, _⟩ => ⟨S24576, .i32⟩
  | .hbm, ⟨42, _⟩ => ⟨S24576x1, .i32⟩
  | .hbm, ⟨43, _⟩ => ⟨S1, .i32⟩
  | .hbm, ⟨44, _⟩ => ⟨S_, .i32⟩
  | .hbm, ⟨45, _⟩ => ⟨S24576x1, .i32⟩
  | .hbm, ⟨46, _⟩ => ⟨S24576x1, .i1⟩
  | .hbm, ⟨47, _⟩ => ⟨S1x1, .i32⟩
  | .hbm, ⟨48, _⟩ => ⟨S24576x1, .i32⟩
  | .hbm, ⟨49, _⟩ => ⟨S24576x1, .i1⟩
  | .hbm, ⟨50, _⟩ => ⟨S24576x1, .i1⟩
  | .hbm, ⟨51, _⟩ => ⟨S_, .i1⟩
  | .hbm, ⟨52, _⟩ => ⟨S24576, .i1⟩
  | .hbm, ⟨53, _⟩ => ⟨S32x24576, .f32⟩
  | .hbm, ⟨54, _⟩ => ⟨S32x24576, .i1⟩
  | .hbm, ⟨55, _⟩ => ⟨S_, .f32⟩
  | .hbm, ⟨56, _⟩ => ⟨S32x24576, .f32⟩
  | .hbm, ⟨57, _⟩ => ⟨S32x24576, .f32⟩
  | .hbm, ⟨58, _⟩ => ⟨S32x24576, .f32⟩
  | .hbm, ⟨59, _⟩ => ⟨S_, .f32⟩
  | .hbm, ⟨60, _⟩ => ⟨S32x24576, .f32⟩
  | .hbm, ⟨61, _⟩ => ⟨S32x24576, .f32⟩
  | .hbm, ⟨62, _⟩ => ⟨S_, .i32⟩
  | .hbm, ⟨63, _⟩ => ⟨S24576, .i32⟩
  | .hbm, ⟨64, _⟩ => ⟨S24576, .i1⟩
  | .hbm, ⟨65, _⟩ => ⟨S_, .i32⟩
  | .hbm, ⟨66, _⟩ => ⟨S24576, .i32⟩
  | .hbm, ⟨67, _⟩ => ⟨S24576, .i32⟩
  | .hbm, ⟨68, _⟩ => ⟨S24576, .i32⟩
  | .hbm, ⟨69, _⟩ => ⟨S24576x1, .i32⟩
  | .hbm, ⟨70, _⟩ => ⟨S1, .i32⟩
  | .hbm, ⟨71, _⟩ => ⟨S_, .i32⟩
  | .hbm, ⟨72, _⟩ => ⟨S24576x1, .i32⟩
  | .hbm, ⟨73, _⟩ => ⟨S24576x1, .i1⟩
  | .hbm, ⟨74, _⟩ => ⟨S1x1, .i32⟩
  | .hbm, ⟨75, _⟩ => ⟨S24576x1, .i32⟩
  | .hbm, ⟨76, _⟩ => ⟨S24576x1, .i1⟩
  | .hbm, ⟨77, _⟩ => ⟨S24576x1, .i1⟩
  | .hbm, ⟨78, _⟩ => ⟨S_, .i1⟩
  | .hbm, ⟨79, _⟩ => ⟨S24576, .i1⟩
  | .hbm, ⟨80, _⟩ => ⟨S32x24576x128, .f32⟩
  | .hbm, ⟨81, _⟩ => ⟨S32x24576x128, .i1⟩
  | .hbm, ⟨82, _⟩ => ⟨S_, .f32⟩
  | .hbm, ⟨83, _⟩ => ⟨S32x24576x128, .f32⟩
  | .hbm, ⟨84, _⟩ => ⟨S32x24576x128, .f32⟩
  | .hbm, ⟨85, _⟩ => ⟨S32x24576x128, .f32⟩
  | .hbm, ⟨86, _⟩ => ⟨S_, .f32⟩
  | .hbm, ⟨87, _⟩ => ⟨S32x4096x128, .f32⟩
  | .hbm, ⟨88, _⟩ => ⟨S_, .i32⟩
  | .hbm, ⟨89, _⟩ => ⟨S24576, .i32⟩
  | .hbm, ⟨90, _⟩ => ⟨S24576, .i1⟩
  | .hbm, ⟨91, _⟩ => ⟨S_, .i32⟩
  | .hbm, ⟨92, _⟩ => ⟨S24576, .i32⟩
  | .hbm, ⟨93, _⟩ => ⟨S24576, .i32⟩
  | .hbm, ⟨94, _⟩ => ⟨S24576, .i32⟩
  | .hbm, ⟨95, _⟩ => ⟨S24576x1, .i32⟩
  | .hbm, ⟨96, _⟩ => ⟨S32x4096x128, .f32⟩
  | .local _ .vmem, ⟨0, _⟩ => ⟨S1x128, .f32⟩
  | .local _ .vmem, ⟨1, _⟩ => ⟨S1x128, .f32⟩
  | .local _ .vmem, ⟨2, _⟩ => ⟨S32x256x128, .f32⟩
  | .local _ .vmem, ⟨3, _⟩ => ⟨S32x256x128, .f32⟩
  | .local _ .vmem, ⟨4, _⟩ => ⟨S32x256, .f32⟩
  | .local _ .vmem, ⟨5, _⟩ => ⟨S32x256, .f32⟩
  | .local _ .vmem, ⟨6, _⟩ => ⟨S32x256, .f32⟩
  | .local _ .vmem, ⟨7, _⟩ => ⟨S32x256, .f32⟩
  | .local _ .vmem, ⟨8, _⟩ => ⟨S32x256, .f32⟩
  | .local _ .vmem, ⟨9, _⟩ => ⟨S32x256, .f32⟩
  | .local _ .vmem, ⟨10, _⟩ => ⟨S32x256x128, .f32⟩
  | .local _ .vmem, ⟨11, _⟩ => ⟨S32x256x128, .f32⟩
  | .local _ .vmem, ⟨12, _⟩ => ⟨S32x256x128, .f32⟩
  | .local _ .vmem, ⟨13, _⟩ => ⟨S32x256x128, .f32⟩
  | _, _ => ⟨S32x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v7 : Ref sig .tc := ⟨.hbm, 34, rfl⟩
abbrev main_call1_c : Ref sig .tc := ⟨.hbm, 35, rfl⟩
abbrev main_call1_v0 : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_c_1 : Ref sig .tc := ⟨.hbm, 43, rfl⟩
abbrev main_call1_c_2 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_3 : Ref sig .tc := ⟨.hbm, 51, rfl⟩
abbrev main_call1_v12 : Ref sig .tc := ⟨.hbm, 52, rfl⟩
abbrev main_call1_v13 : Ref sig .tc := ⟨.hbm, 53, rfl⟩
abbrev main_call1_v14 : Ref sig .tc := ⟨.hbm, 54, rfl⟩
abbrev main_call1_cst : Ref sig .tc := ⟨.hbm, 55, rfl⟩
abbrev main_call1_v15 : Ref sig .tc := ⟨.hbm, 56, rfl⟩
abbrev main_v8 : Ref sig .tc := ⟨.hbm, 57, rfl⟩
abbrev main_v9 : Ref sig .tc := ⟨.hbm, 58, rfl⟩
abbrev main_v10 : Ref sig .tc := ⟨.hbm, 59, rfl⟩
abbrev main_v11 : Ref sig .tc := ⟨.hbm, 60, rfl⟩
abbrev main_v12 : Ref sig .tc := ⟨.hbm, 61, rfl⟩
abbrev main_call2_c : Ref sig .tc := ⟨.hbm, 62, rfl⟩
abbrev main_call2_v0 : Ref sig .tc := ⟨.hbm, 63, rfl⟩
abbrev main_call2_v1 : Ref sig .tc := ⟨.hbm, 64, rfl⟩
abbrev main_call2_c_0 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_call2_v5 : Ref sig .tc := ⟨.hbm, 69, rfl⟩
abbrev main_call2_c_1 : Ref sig .tc := ⟨.hbm, 70, rfl⟩
abbrev main_call2_c_2 : Ref sig .tc := ⟨.hbm, 71, rfl⟩
abbrev main_call2_v6 : Ref sig .tc := ⟨.hbm, 72, rfl⟩
abbrev main_call2_v7 : Ref sig .tc := ⟨.hbm, 73, rfl⟩
abbrev main_call2_v8 : Ref sig .tc := ⟨.hbm, 74, rfl⟩
abbrev main_call2_v9 : Ref sig .tc := ⟨.hbm, 75, rfl⟩
abbrev main_call2_v10 : Ref sig .tc := ⟨.hbm, 76, rfl⟩
abbrev main_call2_v11 : Ref sig .tc := ⟨.hbm, 77, rfl⟩
abbrev main_call2_c_3 : Ref sig .tc := ⟨.hbm, 78, rfl⟩
abbrev main_call2_v12 : Ref sig .tc := ⟨.hbm, 79, rfl⟩
abbrev main_call2_v13 : Ref sig .tc := ⟨.hbm, 80, rfl⟩
abbrev main_call2_v14 : Ref sig .tc := ⟨.hbm, 81, rfl⟩
abbrev main_call2_cst : Ref sig .tc := ⟨.hbm, 82, rfl⟩
abbrev main_call2_v15 : Ref sig .tc := ⟨.hbm, 83, rfl⟩
abbrev main_v13 : Ref sig .tc := ⟨.hbm, 84, rfl⟩
abbrev main_v14 : Ref sig .tc := ⟨.hbm, 85, rfl⟩
abbrev main_cst : Ref sig .tc := ⟨.hbm, 86, rfl⟩
abbrev main_v15 : Ref sig .tc := ⟨.hbm, 87, rfl⟩
abbrev main_c : Ref sig .tc := ⟨.hbm, 88, rfl⟩
abbrev main_v16 : Ref sig .tc := ⟨.hbm, 89, rfl⟩
abbrev main_v17 : Ref sig .tc := ⟨.hbm, 90, rfl⟩
abbrev main_c_0 : Ref sig .tc := ⟨.hbm, 91, rfl⟩
abbrev main_v18 : Ref sig .tc := ⟨.hbm, 92, rfl⟩
abbrev main_v19 : Ref sig .tc := ⟨.hbm, 93, rfl⟩
abbrev main_v20 : Ref sig .tc := ⟨.hbm, 94, rfl⟩
abbrev main_v21 : Ref sig .tc := ⟨.hbm, 95, rfl⟩
abbrev main_v22 : Ref sig .tc := ⟨.hbm, 96, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S32x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![96], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S32x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S32x256x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S32x256x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x24576_S1x24576_0_0 : S2x24576.Slices ![0, 0] S1x24576
  shapeCasts_S1x24576_S24576 : S1x24576.ShapeCasts S24576
  slices_S2x24576_S1x24576_1_0 : S2x24576.Slices ![1, 0] S1x24576
  slices_S1x256_S1x128_0_0 : S1x256.Slices ![0, 0] S1x128
  slices_S1x256_S1x128_0_128 : S1x256.Slices ![0, 128] S1x128
  inb_S32x256x128_S32x256x128_0_0_0 : ∀ a, (![0, 0, 0] : Fin 3 → Nat) a + S32x256x128.size a ≤ S32x256x128.size a
  h_S32x256x128 : 0 < S32x256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S1x128_S128 : S1x128.ShapeCasts S128
  shapeCasts_S128_S1x1x128 : S128.ShapeCasts S1x1x128
  broadcasts_S1x1x128_S32x256x128 : S1x1x128.Broadcasts S32x256x128
  reduces_S32x256x128_S32x256 : S32x256x128.Reduces [2] S32x256
  inb_S32x256_S32x256_0_0 : ∀ a, (![0, 0] : Fin 2 → Nat) a + S32x256.size a ≤ S32x256.size a
  h_S32x256 : 0 < S32x256.numel
  bcast_S_S24576 : S_.BroadcastsInDim S24576 (![] : Fin 0 → Fin S24576.rank)
  bcast_S24576_S24576x1_0 : S24576.BroadcastsInDim S24576x1 (![0] : Fin 1 → Fin S24576x1.rank)
  bcast_S_S24576x1 : S_.BroadcastsInDim S24576x1 (![] : Fin 0 → Fin S24576x1.rank)
  bcast_S1_S1x1_1 : S1.BroadcastsInDim S1x1 (![1] : Fin 1 → Fin S1x1.rank)
  bcast_S1x1_S24576x1_0_1 : S1x1.BroadcastsInDim S24576x1 (![0, 1] : Fin 2 → Fin S24576x1.rank)
  reducesTo_S24576x1_S24576_d1 : S24576x1.ReducesTo [1] S24576
  h_S_ : 0 < S_.numel
  bcast_S24576_S32x24576_1 : S24576.BroadcastsInDim S32x24576 (![1] : Fin 1 → Fin S32x24576.rank)
  bcast_S_S32x24576 : S_.BroadcastsInDim S32x24576 (![] : Fin 0 → Fin S32x24576.rank)
  shapeCasts_S1_S_ : S1.ShapeCasts S_
  bcast_S24576_S32x24576x128_1 : S24576.BroadcastsInDim S32x24576x128 (![1] : Fin 1 → Fin S32x24576x128.rank)
  bcast_S_S32x24576x128 : S_.BroadcastsInDim S32x24576x128 (![] : Fin 0 → Fin S32x24576x128.rank)
  shapeCasts_S32x256x128_S32x256x128 : S32x256x128.ShapeCasts S32x256x128
  shapeCasts_S32x256_S32x256 : S32x256.ShapeCasts S32x256
  shapeCasts_S32x256_S32x256x1 : S32x256.ShapeCasts S32x256x1
  broadcasts_S32x256x1_S32x256x128 : S32x256x1.Broadcasts S32x256x128
  bcast_S_S32x4096x128 : S_.BroadcastsInDim S32x4096x128 (![] : Fin 0 → Fin S32x4096x128.rank)
  gather_S32x4096_S24576x1_S32x24576_0_1_n_n_1_1_321_wf : GatherDims.WF S32x4096 S24576x1 S32x24576 [0] [1] [] [1] [] 1 ![32, 1]
  gather_S32x4096x128_S24576x1_S32x24576x128_02_1_n_n_1_1_321128_wf : GatherDims.WF S32x4096x128 S24576x1 S32x24576x128 [0, 2] [1] [] [1] [] 1 ![32, 1, 128]
  scatter_S32x4096x128_S24576x1_S32x24576x128_02_1_1_1_wf : ScatterDims.WF S32x4096x128 S24576x1 S32x24576x128 [0, 2] [1] [1] 1
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x128.size a ≤ S1x128.size a
  hwx0_0 : ∀ i : grid0.Coords, EltTy.bits .f32 = 32 ∨ (Rect.block (s := S1x128) S1x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x256x128.size a ≤ S32x4096x128.size a
  hwx0_2 : ∀ i : grid0.Coords, EltTy.bits .f32 = 32 ∨ (Rect.block (s := S32x4096x128) S32x256x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x256.size a ≤ S32x4096.size a
  hwx0_3 : ∀ i : grid0.Coords, EltTy.bits .f32 = 32 ∨ (Rect.block (s := S32x4096) S32x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x256.size a ≤ S32x4096.size a
  hwx0_4 : ∀ i : grid0.Coords, EltTy.bits .f32 = 32 ∨ (Rect.block (s := S32x4096) S32x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32x256.size a ≤ S32x24576.size a
  hwx1_0 : ∀ i : grid1.Coords, EltTy.bits .f32 = 32 ∨ (Rect.block (s := S32x24576) S32x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S32x256x128.size a ≤ S32x24576x128.size a
  hwx1_1 : ∀ i : grid1.Coords, EltTy.bits .f32 = 32 ∨ (Rect.block (s := S32x24576x128) S32x256x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S32x256x128.size a ≤ S32x24576x128.size a
  hwx1_2 : ∀ i : grid1.Coords, EltTy.bits .f32 = 32 ∨ (Rect.block (s := S32x24576x128) S32x256x128.size (cc1_transform_2 i) (hinb1_2 i)).WholeWords (EltTy.packing .f32)

variable [Facts₀]

def gather_S32x4096_S24576x1_S32x24576_0_1_n_n_1_1_321 : GatherDims S32x4096 S24576x1 S32x24576 where
  offsetDims := [0]
  collapsedSliceDims := [1]
  operandBatchingDims := []
  startIndicesBatchingDims := []
  startIndexMap := [1]
  indexVectorDim := 1
  sliceSizes := ![32, 1]
  wf := gather_S32x4096_S24576x1_S32x24576_0_1_n_n_1_1_321_wf
def gather_S32x4096x128_S24576x1_S32x24576x128_02_1_n_n_1_1_321128 : GatherDims S32x4096x128 S24576x1 S32x24576x128 where
  offsetDims := [0, 2]
  collapsedSliceDims := [1]
  operandBatchingDims := []
  startIndicesBatchingDims := []
  startIndexMap := [1]
  indexVectorDim := 1
  sliceSizes := ![32, 1, 128]
  wf := gather_S32x4096x128_S24576x1_S32x24576x128_02_1_n_n_1_1_321128_wf
def scatter_S32x4096x128_S24576x1_S32x24576x128_02_1_1_1 : ScatterDims S32x4096x128 S24576x1 S32x24576x128 where
  updateWindowDims := [0, 2]
  insertedWindowDims := [1]
  scatterDimsToOperandDims := [1]
  indexVectorDim := 1
  wf := scatter_S32x4096x128_S24576x1_S32x24576x128_02_1_1_1_wf

abbrev win0_0 : Pipeline.Window sig grid0 :=
  Pipeline.Window.ofSpec (Memref.whole main_v4) S1x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S32x256x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6_0) S32x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6_1) S32x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v12) S32x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S32x256x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S32x256x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S32x4096x128 : Shape := ⟨3, ![32, 4096, 128]⟩
abbrev S2x24576 : Shape := ⟨2, ![2, 24576]⟩
abbrev S1x256 : Shape := ⟨2, ![1, 256]⟩
abbrev S1 : Shape := ⟨1, ![1]⟩
abbrev S1x24576 : Shape := ⟨2, ![1, 24576]⟩
abbrev S24576 : Shape := ⟨1, ![24576]⟩
abbrev S_ : Shape := ⟨0, ![]⟩
abbrev S24576x1 : Shape := ⟨2, ![24576, 1]⟩
abbrev S32x24576x128 : Shape := ⟨3, ![32, 24576, 128]⟩
abbrev S1x128 : Shape := ⟨2, ![1, 128]⟩
abbrev S32x24576x1 : Shape := ⟨3, ![32, 24576, 1]⟩
abbrev S1x1x1 : Shape := ⟨3, ![1, 1, 1]⟩

abbrev nBuf : Space → Nat
  | .hbm => 55
  | .vmem => 0
  | .smem => 0
  | _ => 0

abbrev bufTy : (tb : Table) → Fin (tcTables nBuf tb) → BufTy
  | .hbm, ⟨0, _⟩ => ⟨S32x4096x128, .f32⟩
  | .hbm, ⟨1, _⟩ => ⟨S2x24576, .i32⟩
  | .hbm, ⟨2, _⟩ => ⟨S1x256, .f32⟩
  | .hbm, ⟨3, _⟩ => ⟨S1, .f32⟩
  | .hbm, ⟨4, _⟩ => ⟨S1x24576, .i32⟩
  | .hbm, ⟨5, _⟩ => ⟨S24576, .i32⟩
  | .hbm, ⟨6, _⟩ => ⟨S1x24576, .i32⟩
  | .hbm, ⟨7, _⟩ => ⟨S24576, .i32⟩
  | .hbm, ⟨8, _⟩ => ⟨S_, .i32⟩
  | .hbm, ⟨9, _⟩ => ⟨S24576, .i32⟩
  | .hbm, ⟨10, _⟩ => ⟨S24576, .i1⟩
  | .hbm, ⟨11, _⟩ => ⟨S_, .i32⟩
  | .hbm, ⟨12, _⟩ => ⟨S24576, .i32⟩
  | .hbm, ⟨13, _⟩ => ⟨S24576, .i32⟩
  | .hbm, ⟨14, _⟩ => ⟨S24576, .i32⟩
  | .hbm, ⟨15, _⟩ => ⟨S24576x1, .i32⟩
  | .hbm, ⟨16, _⟩ => ⟨S32x24576x128, .f32⟩
  | .hbm, ⟨17, _⟩ => ⟨S_, .i32⟩
  | .hbm, ⟨18, _⟩ => ⟨S24576, .i32⟩
  | .hbm, ⟨19, _⟩ => ⟨S24576, .i1⟩
  | .hbm, ⟨20, _⟩ => ⟨S_, .i32⟩
  | .hbm, ⟨21, _⟩ => ⟨S24576, .i32⟩
  | .hbm, ⟨22, _⟩ => ⟨S24576, .i32⟩
  | .hbm, ⟨23, _⟩ => ⟨S24576, .i32⟩
  | .hbm, ⟨24, _⟩ => ⟨S24576x1, .i32⟩
  | .hbm, ⟨25, _⟩ => ⟨S32x24576x128, .f32⟩
  | .hbm, ⟨26, _⟩ => ⟨S1x128, .f32⟩
  | .hbm, ⟨27, _⟩ => ⟨S1x128, .f32⟩
  | .hbm, ⟨28, _⟩ => ⟨S32x24576x1, .f32⟩
  | .hbm, ⟨29, _⟩ => ⟨S32x24576x1, .f32⟩
  | .hbm, ⟨30, _⟩ => ⟨S32x24576x1, .f32⟩
  | .hbm, ⟨31, _⟩ => ⟨S1x1x1, .f32⟩
  | .hbm, ⟨32, _⟩ => ⟨S32x24576x1, .f32⟩
  | .hbm, ⟨33, _⟩ => ⟨S32x24576x1, .f32⟩
  | .hbm, ⟨34, _⟩ => ⟨S32x24576x1, .f32⟩
  | .hbm, ⟨35, _⟩ => ⟨S32x24576x1, .f32⟩
  | .hbm, ⟨36, _⟩ => ⟨S_, .f32⟩
  | .hbm, ⟨37, _⟩ => ⟨S32x24576x1, .f32⟩
  | .hbm, ⟨38, _⟩ => ⟨S32x24576x1, .f32⟩
  | .hbm, ⟨39, _⟩ => ⟨S_, .f32⟩
  | .hbm, ⟨40, _⟩ => ⟨S32x24576x1, .f32⟩
  | .hbm, ⟨41, _⟩ => ⟨S32x24576x1, .f32⟩
  | .hbm, ⟨42, _⟩ => ⟨S32x24576x128, .f32⟩
  | .hbm, ⟨43, _⟩ => ⟨S32x24576x128, .f32⟩
  | .hbm, ⟨44, _⟩ => ⟨S_, .f32⟩
  | .hbm, ⟨45, _⟩ => ⟨S32x4096x128, .f32⟩
  | .hbm, ⟨46, _⟩ => ⟨S_, .i32⟩
  | .hbm, ⟨47, _⟩ => ⟨S24576, .i32⟩
  | .hbm, ⟨48, _⟩ => ⟨S24576, .i1⟩
  | .hbm, ⟨49, _⟩ => ⟨S_, .i32⟩
  | .hbm, ⟨50, _⟩ => ⟨S24576, .i32⟩
  | .hbm, ⟨51, _⟩ => ⟨S24576, .i32⟩
  | .hbm, ⟨52, _⟩ => ⟨S24576, .i32⟩
  | .hbm, ⟨53, _⟩ => ⟨S24576x1, .i32⟩
  | .hbm, ⟨54, _⟩ => ⟨S32x4096x128, .f32⟩
  | _, _ => ⟨S32x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_4 : Ref sig .tc := ⟨.hbm, 44, rfl⟩
abbrev main_v34 : Ref sig .tc := ⟨.hbm, 45, rfl⟩
abbrev main_c_5 : Ref sig .tc := ⟨.hbm, 46, rfl⟩
abbrev main_v35 : Ref sig .tc := ⟨.hbm, 47, rfl⟩
abbrev main_v36 : Ref sig .tc := ⟨.hbm, 48, rfl⟩
abbrev main_c_6 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩

abbrev nD : Nat := 1
abbrev τ : Topo := Topo.v7x

variable {F : FTy → Type} [FloatOps F]

class Facts₀ : Prop where
  slices_S2x24576_S1x24576_0_0 : S2x24576.Slices ![0, 0] S1x24576
  shapeCasts_S1x24576_S24576 : S1x24576.ShapeCasts S24576
  slices_S2x24576_S1x24576_1_0 : S2x24576.Slices ![1, 0] S1x24576
  bcast_S_S24576 : S_.BroadcastsInDim S24576 (![] : Fin 0 → Fin S24576.rank)
  bcast_S24576_S24576x1_0 : S24576.BroadcastsInDim S24576x1 (![0] : Fin 1 → Fin S24576x1.rank)
  slices_S1x256_S1x128_0_0 : S1x256.Slices ![0, 0] S1x128
  slices_S1x256_S1x128_0_128 : S1x256.Slices ![0, 128] S1x128
  bcast_S1_S1x1x1_2 : S1.BroadcastsInDim S1x1x1 (![2] : Fin 1 → Fin S1x1x1.rank)
  bcast_S1x1x1_S32x24576x1_0_1_2 : S1x1x1.BroadcastsInDim S32x24576x1 (![0, 1, 2] : Fin 3 → Fin S32x24576x1.rank)
  bcast_S_S32x24576x1 : S_.BroadcastsInDim S32x24576x1 (![] : Fin 0 → Fin S32x24576x1.rank)
  bcast_S32x24576x1_S32x24576x128_0_1_2 : S32x24576x1.BroadcastsInDim S32x24576x128 (![0, 1, 2] : Fin 3 → Fin S32x24576x128.rank)
  bcast_S_S32x4096x128 : S_.BroadcastsInDim S32x4096x128 (![] : Fin 0 → Fin S32x4096x128.rank)
  gather_S32x4096x128_S24576x1_S32x24576x128_02_1_n_n_1_1_321128_wf : GatherDims.WF S32x4096x128 S24576x1 S32x24576x128 [0, 2] [1] [] [1] [] 1 ![32, 1, 128]
  dot_S32x24576x128_S1x128_S32x24576x1_2_1_01_0_n_n_wf : DotDims.WF S32x24576x128 S1x128 S32x24576x1 [2] [1] [0, 1] [0] [] []
  scatter_S32x4096x128_S24576x1_S32x24576x128_02_1_1_1_wf : ScatterDims.WF S32x4096x128 S24576x1 S32x24576x128 [0, 2] [1] [1] 1

variable [Facts₀]

def gather_S32x4096x128_S24576x1_S32x24576x128_02_1_n_n_1_1_321128 : GatherDims S32x4096x128 S24576x1 S32x24576x128 where
  offsetDims := [0, 2]
  collapsedSliceDims := [1]
  operandBatchingDims := []
  startIndicesBatchingDims := []
  startIndexMap := [1]
  indexVectorDim := 1
  sliceSizes := ![32, 1, 128]
  wf := gather_S32x4096x128_S24576x1_S32x24576x128_02_1_n_n_1_1_321128_wf
def dot_S32x24576x128_S1x128_S32x24576x1_2_1_01_0_n_n : DotDims S32x24576x128 S1x128 S32x24576x1 where
  lhsContracting := [2]
  rhsContracting := [1]
  lhsNonContracting := [0, 1]
  rhsNonContracting := [0]
  lhsBatch := []
  rhsBatch := []
  wf := dot_S32x24576x128_S1x128_S32x24576x1_2_1_01_0_n_n_wf
def scatter_S32x4096x128_S24576x1_S32x24576x128_02_1_1_1 : ScatterDims S32x4096x128 S24576x1 S32x24576x128 where
  updateWindowDims := [0, 2]
  insertedWindowDims := [1]
  scatterDimsToOperandDims := [1]
  indexVectorDim := 1
  wf := scatter_S32x4096x128_S24576x1_S32x24576x128_02_1_1_1_wf

class Facts : Prop extends Facts₀ where

variable [Facts]
-- ==== Proof.Spec.lean ====
/-
  The message tensor of one gated message-passing layer, as ONE function of the argument arrays.

  For a batch entry `b`, an edge `e` with end nodes `s = src e`, `t = dst e` and a feature `d`:
      msg (b, e, d) = x (b, s, d) · σ ( (∑ₖ x (b, s, k) · W (0, k) + ∑ₖ x (b, t, k) · W (0, 128 + k)) + bias )
  with σ z = 1 / (1 + e^(−z)) on the extended reals. A node's two partial scores are plain finite sums, so
  whether the rows are gathered first and contracted afterwards, or contracted first and the scalars gathered
  afterwards, the same sum is written down: no law beyond reading each array at its index is needed, and the
  float inputs' finiteness is never used. The edge words are node numbers: each lies in [0, 4096).
-/
import Idealize.ShloMosaic.PureOps.Ideal
import Idealize.ShloMosaic.Lib.ValueIdx

noncomputable section

open scoped BigOperators

namespace Cert.GateSpec

open Idealize.ShloMosaic Idealize.ShloMosaic.ValueIdx

/-- Node features `[32, 4096, 128]`. -/
abbrev SX : Shape := ⟨3, ![32, 4096, 128]⟩
/-- The two rows of edge ends `[2, 24576]`. -/
abbrev SE : Shape := ⟨2, ![2, 24576]⟩
/-- The gate's weights `[1, 256]`: the source half, then the destination half. -/
abbrev SW : Shape := ⟨2, ![1, 256]⟩
/-- The gate's bias `[1]`. -/
abbrev SB : Shape := ⟨1, ![1]⟩
/-- Messages `[32, 24576, 128]`. -/
abbrev SM : Shape := ⟨3, ![32, 24576, 128]⟩

/-- Every edge word is a node number. -/
def InRange (ei : SE.Idx → BitVec 32) : Prop := ∀ i : SE.Idx, 0 ≤ (ei i).toInt ∧ (ei i).toInt < 4096

/-- The node an edge word names (row `0`: sources, row `1`: destinations). -/
def node (ei : SE.Idx → BitVec 32) (r : Fin 2) (e : Fin 24576) : Fin 4096 :=
  ⟨(ei (ix2 r e)).toNat % 4096, Nat.mod_lt _ (by norm_num)⟩

/-- A node's partial score against the source half of the weights. -/
def gateS (x : SX.Idx → EReal) (w : SW.Idx → EReal) (b : Fin 32) (n : Fin 4096) : EReal :=
  ∑ k : Fin 128, x (ix3 b n k) * w (ix2 (0 : Fin 1) (⟨k.val, by omega⟩ : Fin 256))

/-- A node's partial score against the destination half of the weights. -/
def gateD (x : SX.Idx → EReal) (w : SW.Idx → EReal) (b : Fin 32) (n : Fin 4096) : EReal :=
  ∑ k : Fin 128, x (ix3 b n k) * w (ix2 (0 : Fin 1) (⟨128 + k.val, by omega⟩ : Fin 256))

/-- An edge's score: source part plus destination part, plus the bias. -/
def score (x : SX.Idx → EReal) (ei : SE.Idx → BitVec 32) (w : SW.Idx → EReal) (bias : SB.Idx → EReal)
    (b : Fin 32) (e : Fin 24576) : EReal :=
  (gateS x w b (node ei 0 e) + gateD x w b (node ei 1 e)) + bias (ix1 (0 : Fin 1))

/-- The message tensor. -/
def msg (x : SX.Idx → EReal) (ei : SE.Idx → BitVec 32) (w : SW.Idx → EReal) (bias : SB.Idx → EReal) :
    SM.Idx → EReal :=
  fun i => x (ix3 (i 0) (node ei 0 (i 1)) (i 2)) * Ideal.logistic (score x ei w bias (i 0) (i 1))

end Cert.GateSpec

end
-- ==== Proof.PreRange.lean ====
/-
  The precondition, read back: when the printed predicate holds, every edge word is a node number.

  The predicate is a conjunction of five "all elements" tests. The last two test the edge words, signed:
  each is at least 0, and each is below 4096. A conjunction of bits that is 1 has every conjunct 1; an
  "and"-reduction over all axes that is 1 met a 1 at every index; and a signed comparison bit that is 1
  says the comparison of the two signed readings holds. The constants compared against read 0 and 4096.
-/
import proofs.«156650_j53772990546137_2_alg».proof.Pre_finite_inputs
import proofs.«156650_j53772990546137_2_alg».proof.Proof.Spec
import Idealize.ShloMosaic.Lib.ReduceAll
import Idealize.ShloMosaic.Lib.ValueIdx

namespace Cert.PreRange

open Idealize.ShloMosaic Idealize.ShloMosaic.ValueIdx

/-- A rank-0 shape has one index. -/
instance subsingleton_scalar_idx : Subsingleton Cert.Pre_finite_inputs.S_.Idx :=
  ⟨fun a b => funext fun d => d.elim0⟩

/-- The precondition gives the range of every edge word. -/
theorem inRange_of_pre {F : FTy → Type} [FloatOps F] [Cert.Pre_finite_inputs.Facts]
    (x0 : FVec F Cert.Pre_finite_inputs.S32x4096x128 .f32) (x1 : IVec Cert.Pre_finite_inputs.S2x24576 32)
    (x2 : FVec F Cert.Pre_finite_inputs.S1x256 .f32) (x3 : FVec F Cert.Pre_finite_inputs.S1 .f32)
    (h : Cert.Pre_finite_inputs.fn (F := F) x0 x1 x2 x3 = fun _ => 1#1) : Cert.GateSpec.InRange x1 := by
  have h0 := congrFun h ValueIdx.ix0
  dsimp only [Cert.Pre_finite_inputs.fn, Cert.Pre_finite_inputs.fn_part1] at h0
  -- the outer conjunction: (first three tests ∧ "≥ 0" test) ∧ "< 4096" test
  obtain ⟨h12, hlt⟩ := IntOp.andi_eq_one.1 h0
  obtain ⟨-, hge⟩ := IntOp.andi_eq_one.1 h12
  intro i
  have hge_i := Host.reduce_andi_all _ _ _ _ _ hge i
  have hlt_i := Host.reduce_andi_all _ _ _ _ _ hlt i
  have hge' := IntOp.cmpi_sge.1 hge_i
  have hlt' := IntOp.cmpi_slt.1 hlt_i
  exact ⟨hge', hlt'⟩

end Cert.PreRange
-- ==== Proof.LibGatherRows.lean ====
/-
  Gathers of whole rows along axis 1, read at an index.

  A `stablehlo.gather` whose start indices are one column of row numbers `[E, 1]`, whose start index map names axis 1
  of the operand only, which collapses that axis and takes every other axis whole, copies row `idx[e, 0]` of the
  operand to position `e` of the result. StableHLO reads the start index as a signed integer and clamps it so that the
  slice fits: on an axis of extent 4096 with slices of size 1, into `[0, 4095]`. Two instances over literal shapes are
  stated, a rank-3 operand `[32, 4096, 128]` (rows of 128 features per batch entry) and a rank-2 operand `[32, 4096]`
  (one scalar per batch entry and node), both at 24576 start indices. Below them, two facts about a 32-bit index
  word that lies in `[0, 4096)`: wrapping a negative word around by 4096 leaves it alone, and the clamped row number
  is the word's value modulo 4096.
-/
import Idealize.ShloMosaic.Lib.ValueIdx

noncomputable section

namespace Cert.LibGatherRows

open Idealize.ShloMosaic Idealize.ShloMosaic.ValueIdx

/-- Rows of a rank-3 operand `[32, 4096, 128]` along axis 1 at start indices `[24576, 1]`: offset axes `0` and `2` of
    the result take operand axes `0` and `2` whole, operand axis `1` is collapsed and is the one the start index
    names. -/
abbrev rows3 : GatherDims ⟨3, ![32, 4096, 128]⟩ ⟨2, ![24576, 1]⟩ ⟨3, ![32, 24576, 128]⟩ where
  offsetDims := [0, 2]
  collapsedSliceDims := [1]
  operandBatchingDims := []
  startIndicesBatchingDims := []
  startIndexMap := [1]
  indexVectorDim := 1
  sliceSizes := ![32, 1, 128]
  wf := by decide

/-- Rows of a rank-2 operand `[32, 4096]` along axis 1 at start indices `[24576, 1]`: offset axis `0` of the result
    takes operand axis `0` whole, operand axis `1` is collapsed and is the one the start index names. -/
abbrev rows2 : GatherDims ⟨2, ![32, 4096]⟩ ⟨2, ![24576, 1]⟩ ⟨2, ![32, 24576]⟩ where
  offsetDims := [0]
  collapsedSliceDims := [1]
  operandBatchingDims := []
  startIndicesBatchingDims := []
  startIndexMap := [1]
  indexVectorDim := 1
  sliceSizes := ![32, 1]
  wf := by decide

/-- THE RANK-3 ROW GATHER READ AT `(b, e, k)`: the operand at `(b, r, k)`, where `r` is the start index `idx[e, 0]`
    read signed and clamped into `[0, 4095]`. -/
theorem gather_rows3_apply {α : Type} {w : Nat} (x : (⟨3, ![32, 4096, 128]⟩ : Shape).Idx → α)
    (idx : IVec ⟨2, ![24576, 1]⟩ w) (b : Fin 32) (e : Fin 24576) (k : Fin 128) :
    Host.gather rows3 x idx (ix3 b e k)
      = x (ix3 b ⟨min (idx (ix2 e (0 : Fin 1))).toInt.toNat 4095, by omega⟩ k) := by
  unfold Host.gather
  refine congrArg x ?_
  funext a
  refine Fin.ext ?_
  match a with
  | ⟨0, _⟩ =>
    show rows3.start (ix3 b e k) idx 0 + rows3.batchCoord (ix3 b e k) 0 + rows3.offCoord (ix3 b e k) 0 = b.val
    rw [GatherDims.batchCoord_eq_zero _ _ _ List.not_mem_nil]
    unfold GatherDims.start
    rw [dif_neg (by decide)]
    unfold GatherDims.offCoord
    rw [dif_pos (by decide)]
    simp only [Nat.zero_add, Nat.add_zero]
    rfl
  | ⟨1, _⟩ =>
    show rows3.start (ix3 b e k) idx 1 + rows3.batchCoord (ix3 b e k) 1 + rows3.offCoord (ix3 b e k) 1
      = min (idx (ix2 e (0 : Fin 1))).toInt.toNat 4095
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 3) ∈ rows3.startIndexMap from List.mem_singleton.mpr rfl)]
    have hsi : rows3.siIdx (ix3 b e k) ⟨List.idxOf (1 : Fin 3) rows3.startIndexMap,
        List.idxOf_lt_length_iff.2 (List.mem_singleton.mpr rfl)⟩ = ix2 e (0 : Fin 1) := by
      funext c; refine Fin.ext ?_
      match c with
      | ⟨0, _⟩ => rfl
      | ⟨1, _⟩ => rfl
    rw [hsi]
    rfl
  | ⟨2, _⟩ =>
    show rows3.start (ix3 b e k) idx 2 + rows3.batchCoord (ix3 b e k) 2 + rows3.offCoord (ix3 b e k) 2 = k.val
    rw [GatherDims.batchCoord_eq_zero _ _ _ List.not_mem_nil]
    unfold GatherDims.start
    rw [dif_neg (by decide)]
    unfold GatherDims.offCoord
    rw [dif_pos (by decide)]
    simp only [Nat.zero_add, Nat.add_zero]
    rfl

/-- THE RANK-2 ROW GATHER READ AT `(b, e)`: the operand at `(b, r)`, where `r` is the start index `idx[e, 0]` read
    signed and clamped into `[0, 4095]`. -/
theorem gather_rows2_apply {α : Type} {w : Nat} (g : (⟨2, ![32, 4096]⟩ : Shape).Idx → α)
    (idx : IVec ⟨2, ![24576, 1]⟩ w) (b : Fin 32) (e : Fin 24576) :
    Host.gather rows2 g idx (ix2 b e)
      = g (ix2 b ⟨min (idx (ix2 e (0 : Fin 1))).toInt.toNat 4095, by omega⟩) := by
  unfold Host.gather
  refine congrArg g ?_
  funext a
  refine Fin.ext ?_
  match a with
  | ⟨0, _⟩ =>
    show rows2.start (ix2 b e) idx 0 + rows2.batchCoord (ix2 b e) 0 + rows2.offCoord (ix2 b e) 0 = b.val
    rw [GatherDims.batchCoord_eq_zero _ _ _ List.not_mem_nil]
    unfold GatherDims.start
    rw [dif_neg (by decide)]
    unfold GatherDims.offCoord
    rw [dif_pos (by decide)]
    simp only [Nat.zero_add, Nat.add_zero]
    rfl
  | ⟨1, _⟩ =>
    show rows2.start (ix2 b e) idx 1 + rows2.batchCoord (ix2 b e) 1 + rows2.offCoord (ix2 b e) 1
      = min (idx (ix2 e (0 : Fin 1))).toInt.toNat 4095
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ rows2.startIndexMap from List.mem_singleton.mpr rfl)]
    have hsi : rows2.siIdx (ix2 b e) ⟨List.idxOf (1 : Fin 2) rows2.startIndexMap,
        List.idxOf_lt_length_iff.2 (List.mem_singleton.mpr rfl)⟩ = ix2 e (0 : Fin 1) := by
      funext c; refine Fin.ext ?_
      match c with
      | ⟨0, _⟩ => rfl
      | ⟨1, _⟩ => rfl
    rw [hsi]
    rfl

/-! ## An index word in `[0, 4096)` -/

/-- A word that is not negative is not below zero in the signed order, so the select that would wrap a negative
    index around by 4096 returns the word itself. -/
theorem select_wrap_of_nonneg (s : BitVec 32) (h : 0 ≤ s.toInt) :
    Scalar.select (IntOp.cmpi .slt s 0#32) (IntOp.addi s 4096#32) s = s := by
  have hc : IntOp.cmpi .slt s 0#32 = 0#1 := by
    have hs : s.slt 0#32 = false := by
      rw [BitVec.slt_eq_decide]
      simpa using h
    simp [IntOp.cmpi, hs]
  rw [hc]
  exact select_zero _ _

/-- For a word in `[0, 4096)` the signed reading clamped into `[0, 4095]` is the unsigned reading modulo 4096: both
    are the word's value. -/
theorem clamp_eq_mod (s : BitVec 32) (h : 0 ≤ s.toInt ∧ s.toInt < 4096) :
    min s.toInt.toNat 4095 = s.toNat % 4096 := by
  have h1 := BitVec.toInt_eq_toNat_cond s
  have h2 := s.isLt
  split at h1 <;> omega

end Cert.LibGatherRows

end
-- ==== Proof.RefMsg.lean ====
/-
  The reference program's message tensor is the specification's.

  The reference gathers the rows of the node features at the source and at the destination of every edge, contracts
  each gathered row with its half of the weights, adds the two partial scores and the bias, applies
  `1 / (1 + e^(−z))` and multiplies the source rows by the result. Read at an index, each operation is its operands
  at an index; the two gathers read the row the edge word names, because a word in `[0, 4096)` is left alone both by
  the wrap-around of negative indices and by the gather's clamp.
-/
import proofs.«156650_j53772990546137_2_alg».proof.Proof.Gen.ReferenceIdeal.Read
import proofs.«156650_j53772990546137_2_alg».proof.Proof.Spec
import proofs.«156650_j53772990546137_2_alg».proof.Proof.LibGatherRows
import Idealize.ShloMosaic.Lib.IdealHost

noncomputable section

open scoped BigOperators

namespace Cert.ReferenceIdeal.RefValue

open Cert.ReferenceIdeal Cert.ReferenceIdeal.Read Idealize.ShloMosaic Idealize.ShloMosaic.ValueIdx
open Cert.GateSpec Cert.LibGatherRows

/-- The normalised source word of edge `e` is the edge word itself. -/
theorem src_word (x1 : (⟨S2x24576, .i32⟩ : BufTy).Contents (Elt Ideal)) (h : InRange x1) (e : Fin 24576) :
    val_main_v9 (F := Ideal) x1 (ix2 e (0 : Fin 1)) = x1 (ix2 (0 : Fin 2) e) := by
  rw [val_main_v9_apply, val_main_v8_apply, val_main_v5_apply, val_main_v7_apply, val_main_v4_apply,
    val_main_c_apply, val_main_v6_apply, val_main_c_0_apply, val_main_v1_apply, val_main_v0_apply]
  have hi : idx_main_v0 (idx_main_v1 (idx_main_v9 (ix2 e (0 : Fin 1)))) = ix2 (0 : Fin 2) e := by
    funext a
    match a with
    | ⟨0, _⟩ => rfl
    | ⟨1, _⟩ => exact Fin.ext (Nat.mod_eq_of_lt e.isLt)
  rw [hi]
  exact select_wrap_of_nonneg _ (h _).1

/-- The normalised destination word of edge `e` is the edge word itself. -/
theorem dst_word (x1 : (⟨S2x24576, .i32⟩ : BufTy).Contents (Elt Ideal)) (h : InRange x1) (e : Fin 24576) :
    val_main_v16 (F := Ideal) x1 (ix2 e (0 : Fin 1)) = x1 (ix2 (1 : Fin 2) e) := by
  rw [val_main_v16_apply, val_main_v15_apply, val_main_v12_apply, val_main_v14_apply, val_main_v11_apply,
    val_main_c_1_apply, val_main_v13_apply, val_main_c_2_apply, val_main_v3_apply, val_main_v2_apply]
  have hi : idx_main_v2 (idx_main_v3 (idx_main_v16 (ix2 e (0 : Fin 1)))) = ix2 (1 : Fin 2) e := by
    funext a
    match a with
    | ⟨0, _⟩ => rfl
    | ⟨1, _⟩ => exact Fin.ext (Nat.mod_eq_of_lt e.isLt)
  rw [hi]
  exact select_wrap_of_nonneg _ (h _).1

/-- The rows gathered at the sources: row `e` is the source node's row. -/
theorem src_rows (x0 : (⟨S32x4096x128, .f32⟩ : BufTy).Contents (Elt Ideal))
    (x1 : (⟨S2x24576, .i32⟩ : BufTy).Contents (Elt Ideal)) (h : InRange x1) (b : Fin 32) (e : Fin 24576) (k : Fin 128) :
    val_main_v10 (F := Ideal) x0 x1 (ix3 b e k) = x0 (ix3 b (node x1 0 e) k) := by
  unfold val_main_v10
  refine (gather_rows3_apply x0 (val_main_v9 (F := Ideal) x1) b e k).trans ?_
  refine congrArg (fun n => x0 (ix3 b n k)) (Fin.ext ?_)
  show min (val_main_v9 (F := Ideal) x1 (ix2 e (0 : Fin 1))).toInt.toNat 4095 = (x1 (ix2 (0 : Fin 2) e)).toNat % 4096
  rw [src_word x1 h e]
  exact clamp_eq_mod _ (h _)

/-- The rows gathered at the destinations: row `e` is the destination node's row. -/
theorem dst_rows (x0 : (⟨S32x4096x128, .f32⟩ : BufTy).Contents (Elt Ideal))
    (x1 : (⟨S2x24576, .i32⟩ : BufTy).Contents (Elt Ideal)) (h : InRange x1) (b : Fin 32) (e : Fin 24576) (k : Fin 128) :
    val_main_v17 (F := Ideal) x0 x1 (ix3 b e k) = x0 (ix3 b (node x1 1 e) k) := by
  unfold val_main_v17
  refine (gather_rows3_apply x0 (val_main_v16 (F := Ideal) x1) b e k).trans ?_
  refine congrArg (fun n => x0 (ix3 b n k)) (Fin.ext ?_)
  show min (val_main_v16 (F := Ideal) x1 (ix2 e (0 : Fin 1))).toInt.toNat 4095 = (x1 (ix2 (1 : Fin 2) e)).toNat % 4096
  rw [dst_word x1 h e]
  exact clamp_eq_mod _ (h _)

/-- The source rows contracted with the first half of the weights: the source node's partial score. -/
theorem gate_src (x0 : (⟨S32x4096x128, .f32⟩ : BufTy).Contents (Elt Ideal))
    (x1 : (⟨S2x24576, .i32⟩ : BufTy).Contents (Elt Ideal)) (x2 : (⟨S1x256, .f32⟩ : BufTy).Contents (Elt Ideal))
    (h : InRange x1) (b : Fin 32) (e : Fin 24576) :
    val_main_v20 (F := Ideal) x0 x1 x2 (ix3 b e (0 : Fin 1)) = gateS x0 x2 b (node x1 0 e) := by
  rw [val_main_v20_apply]
  unfold gateS
  refine Finset.sum_congr rfl fun k _ => ?_
  have hl : lidx_main_v20 (ix3 b e (0 : Fin 1)) k = ix3 b e k := by
    funext a
    match a with
    | ⟨0, _⟩ => rfl
    | ⟨1, _⟩ => rfl
    | ⟨2, _⟩ => rfl
  have hr : idx_main_v18 (ridx_main_v20 (ix3 b e (0 : Fin 1)) k) = ix2 (0 : Fin 1) (⟨k.val, by omega⟩ : Fin 256) := by
    funext a
    match a with
    | ⟨0, _⟩ => rfl
    | ⟨1, _⟩ => rfl
  rw [hl, src_rows x0 x1 h b e k, val_main_v18_apply, hr]

/-- The destination rows contracted with the second half of the weights: the destination node's partial score. -/
theorem gate_dst (x0 : (⟨S32x4096x128, .f32⟩ : BufTy).Contents (Elt Ideal))
    (x1 : (⟨S2x24576, .i32⟩ : BufTy).Contents (Elt Ideal)) (x2 : (⟨S1x256, .f32⟩ : BufTy).Contents (Elt Ideal))
    (h : InRange x1) (b : Fin 32) (e : Fin 24576) :
    val_main_v21 (F := Ideal) x0 x1 x2 (ix3 b e (0 : Fin 1)) = gateD x0 x2 b (node x1 1 e) := by
  rw [val_main_v21_apply]
  unfold gateD
  refine Finset.sum_congr rfl fun k _ => ?_
  have hl : lidx_main_v21 (ix3 b e (0 : Fin 1)) k = ix3 b e k := by
    funext a
    match a with
    | ⟨0, _⟩ => rfl
    | ⟨1, _⟩ => rfl
    | ⟨2, _⟩ => rfl
  have hr : idx_main_v19 (ridx_main_v21 (ix3 b e (0 : Fin 1)) k) = ix2 (0 : Fin 1) (⟨128 + k.val, by omega⟩ : Fin 256) := by
    funext a
    match a with
    | ⟨0, _⟩ => rfl
    | ⟨1, _⟩ => rfl
  rw [hl, dst_rows x0 x1 h b e k, val_main_v19_apply, hr]

/-- The edge's score: the two partial scores and the bias. -/
theorem ref_score (x0 : (⟨S32x4096x128, .f32⟩ : BufTy).Contents (Elt Ideal))
    (x1 : (⟨S2x24576, .i32⟩ : BufTy).Contents (Elt Ideal)) (x2 : (⟨S1x256, .f32⟩ : BufTy).Contents (Elt Ideal))
    (x3 : (⟨S1, .f32⟩ : BufTy).Contents (Elt Ideal)) (h : InRange x1) (b : Fin 32) (e : Fin 24576) :
    val_main_v25 (F := Ideal) x0 x1 x2 x3 (ix3 b e (0 : Fin 1)) = score x0 x1 x2 x3 b e := by
  rw [val_main_v25_apply, val_main_v22_apply, val_main_v24_apply, val_main_v23_apply, gate_src x0 x1 x2 h b e,
    gate_dst x0 x1 x2 h b e]
  have hb : idx_main_v23 (idx_main_v24 (ix3 b e (0 : Fin 1))) = ix1 (0 : Fin 1) := by
    funext a
    match a with
    | ⟨0, _⟩ => rfl
  rw [hb]
  rfl

/-- The gate: the logistic function of the score. -/
theorem ref_gate (x0 : (⟨S32x4096x128, .f32⟩ : BufTy).Contents (Elt Ideal))
    (x1 : (⟨S2x24576, .i32⟩ : BufTy).Contents (Elt Ideal)) (x2 : (⟨S1x256, .f32⟩ : BufTy).Contents (Elt Ideal))
    (x3 : (⟨S1, .f32⟩ : BufTy).Contents (Elt Ideal)) (h : InRange x1) (b : Fin 32) (e : Fin 24576) :
    val_main_v31 (F := Ideal) x0 x1 x2 x3 (ix3 b e (0 : Fin 1)) = Ideal.logistic (score x0 x1 x2 x3 b e) := by
  rw [val_main_v31_apply, val_main_v30_apply, val_main_cst_3_apply, val_main_v29_apply, val_main_v28_apply,
    val_main_cst_apply, val_main_v27_apply, val_main_v26_apply, ref_score x0 x1 x2 x3 h b e]
  simp only [Ideal.ofBits_def, Ideal.ofBits_one_f32]
  rfl

/-- THE REFERENCE'S MESSAGES ARE THE SPECIFICATION'S. -/
theorem ref_msg (x0 : (⟨S32x4096x128, .f32⟩ : BufTy).Contents (Elt Ideal))
    (x1 : (⟨S2x24576, .i32⟩ : BufTy).Contents (Elt Ideal)) (x2 : (⟨S1x256, .f32⟩ : BufTy).Contents (Elt Ideal))
    (x3 : (⟨S1, .f32⟩ : BufTy).Contents (Elt Ideal)) (h : InRange x1) :
    val_main_v33 (F := Ideal) x0 x1 x2 x3 = msg x0 x1 x2 x3 := by
  funext i
  obtain ⟨b, e, k, rfl⟩ : ∃ b e k, i = ix3 b e k := ⟨_, _, _, eq_ix3 i⟩
  rw [val_main_v33_apply, val_main_v32_apply, src_rows x0 x1 h b e k]
  have hi : idx_main_v32 (ix3 b e k) = ix3 b e (0 : Fin 1) := by
    funext a
    match a with
    | ⟨0, _⟩ => rfl
    | ⟨1, _⟩ => rfl
    | ⟨2, _⟩ => rfl
  rw [hi, ref_gate x0 x1 x2 x3 h b e]
  rfl

end Cert.ReferenceIdeal.RefValue

end
-- ==== Proof.KernelRun.lean ====
/-
  The idealized kernel's run with its RESULT read as well as its arguments.

  @main is a line of host operations, the node-score region, four more stretches of host operations (the three
  row selections and the score sum), the gating region and the closing accumulation. Every unscoped buffer's
  contents at each boundary are a fold through these segments from the launch memory; after the last segment
  they are `Gen.W8`. Every weakly fair execution terminates, without a fault, with EVERY unscoped buffer at that
  fold: here the result buffer is read off it beside the four argument arrays, which end as launched.
-/
import proofs.«156650_j53772990546137_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the last
    boundary's contents and each argument array as launched. -/
theorem run_out : θ_run defs (onTc (τ := τ) (main (F := F))) ⟨m, fun _ => 0, ρ⟩ (fun r => ∀ c : Dev nD,
      r.2.mem ((c.tc : Thread nD τ).loc main_v22) = W8 m ρ c (Proc.devRef .tc main_v22)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v22 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c)⟩)

end Cert.KernelIdeal.RunValue

end
-- ==== Proof.HostDefs.lean ====
/-
  The host operations of the idealized kernel's @main, as values: the definitions.

  Between the launch, the two kernel regions and the return, @main selects rows by the edge words. An index word
  `s` is first normalised as in Python (`s + 4096` when `s < 0`); `take` then gathers at the normalised word,
  clamped into the array, and replaces the rows of a word outside `[0, 4095]` by a fill value. The score of edge
  `e` in batch entry `b` is the source node's partial score taken at the source word plus the destination node's
  taken at the destination word, plus the bias; the rows the gating region multiplies are the node features taken
  at the source words; the result accumulates the gated rows at the normalised destination words into zeros.
  Here each of these values is named as ONE function of what the stretch reads.
-/
import proofs.«156650_j53772990546137_2_alg».proof.Proof.Gen.KernelIdeal

set_option maxRecDepth 16384

noncomputable section

namespace Cert.KernelIdeal.HostValue

open Cert.KernelIdeal Cert.KernelIdeal.Gen
open Idealize.ShloMosaic Idealize.ShloMosaic.TcCoe Idealize.SL.Sem Idealize.ShloMosaic.StableHlo

variable {F : FTy → Type} [FloatOps F]

/-! ## The values -/

/-- A row of edge words, normalised (`s + 4096` where `s < 0`), as a column of start indices. -/
def nrm (s : IVec S24576 32) : IVec S24576x1 32 :=
  broadcastInDim S24576x1 ![0] bcast_S24576_S24576x1_0
    (select (cmpi .slt s (broadcastInDim S24576 ![] bcast_S_S24576 (constantI S_ 32 0#32)))
      (addi s (broadcastInDim S24576 ![] bcast_S_S24576 (constantI S_ 32 4096#32))) s)

/-- Which start indices lie in `[0, 4095]`. -/
def inb (i : IVec S24576x1 32) : IVec S24576 1 :=
  Host.reduce IntOp.andi
    (andi (cmpi .sge i (broadcastInDim S24576x1 ![] bcast_S_S24576x1 (constantI S_ 32 0#32)))
      (cmpi .sle i (broadcastInDim S24576x1 ![0, 1] bcast_S1x1_S24576x1_0_1
        (broadcastInDim S1x1 ![1] bcast_S1_S1x1_1 (constantI S1 32 4095#32)))))
    (constantI S_ 1 1#1) reducesTo_S24576x1_S24576_d1 h_S_

/-- `take` of per-node scalars `[32, 4096]` at a row of edge words. -/
def take2 (g : FVec F S32x4096 .f32) (s : IVec S24576 32) : FVec F S32x24576 .f32 :=
  select (broadcastInDim S32x24576 ![1] bcast_S24576_S32x24576_1 (inb (nrm s)))
    (Host.gather gather_S32x4096_S24576x1_S32x24576_0_1_n_n_1_1_321 g (nrm s))
    (broadcastInDim S32x24576 ![] bcast_S_S32x24576 (constant S_ .f32 0x7FC00000#32))

/-- `take` of node rows `[32, 4096, 128]` at a row of edge words. -/
def take3 (x : FVec F S32x4096x128 .f32) (s : IVec S24576 32) : FVec F S32x24576x128 .f32 :=
  select (broadcastInDim S32x24576x128 ![1] bcast_S24576_S32x24576x128_1 (inb (nrm s)))
    (Host.gather gather_S32x4096x128_S24576x1_S32x24576x128_02_1_n_n_1_1_321128 x (nrm s))
    (broadcastInDim S32x24576x128 ![] bcast_S_S32x24576x128 (constant S_ .f32 0x7FC00000#32))

/-- The edge scores: source part plus destination part, plus the bias. -/
def scores (gs gd : FVec F S32x4096 .f32) (src dst : IVec S24576 32) (b : FVec F S1 .f32) : FVec F S32x24576 .f32 :=
  addf (addf (take2 gs src) (take2 gd dst))
    (broadcastInDim S32x24576 ![] bcast_S_S32x24576 (shapeCast S_ b shapeCasts_S1_S_))

/-- The accumulation of the messages at the normalised destination words into zeros. -/
def accum (dst : IVec S24576 32) (msg : FVec F S32x24576x128 .f32) : FVec F S32x4096x128 .f32 :=
  Host.scatterAdd scatter_S32x4096x128_S24576x1_S32x24576x128_02_1_1_1
    (broadcastInDim S32x4096x128 ![] bcast_S_S32x4096x128 (constant S_ .f32 0x00000000#32)) (nrm dst) msg

/-- Row `r` of the edge words as a vector. -/
def edgeRow0 (ei : IVec S2x24576 32) : IVec S24576 32 :=
  shapeCast S24576 (extractStridedSlice S1x24576 ![0, 0] ei slices_S2x24576_S1x24576_0_0) shapeCasts_S1x24576_S24576
def edgeRow1 (ei : IVec S2x24576 32) : IVec S24576 32 :=
  shapeCast S24576 (extractStridedSlice S1x24576 ![1, 0] ei slices_S2x24576_S1x24576_1_0) shapeCasts_S1x24576_S24576

/-- The two halves of the weights. -/
def wHalf0 (w : FVec F S1x256 .f32) : FVec F S1x128 .f32 := extractStridedSlice S1x128 ![0, 0] w slices_S1x256_S1x128_0_0
def wHalf1 (w : FVec F S1x256 .f32) : FVec F S1x128 .f32 := extractStridedSlice S1x128 ![0, 128] w slices_S1x256_S1x128_0_128

end Cert.KernelIdeal.HostValue

end
-- ==== Proof.KernelHost.lean ====
/-
  The host operations of the idealized kernel's @main, read as values: the boundaries' contents.

  Every boundary's contents are a fold of the stretches of host operations (and of the two regions' write-backs)
  from the launch memory. Each stretch is read ONCE, from ANY contents `W` it might start at, to the named value
  of what it computes (Proof/HostDefs.lean) and to "untouched" for the buffers it only passes on; the boundaries
  are then these readings chained.
-/
import proofs.«156650_j53772990546137_2_alg».proof.Proof.Gen.KernelIdeal.Frame
import proofs.«156650_j53772990546137_2_alg».proof.Proof.HostDefs
import Idealize.ShloMosaic.Lib.StableHlo.Run

set_option maxRecDepth 16384

noncomputable section

namespace Cert.KernelIdeal.HostValue

open Cert.KernelIdeal Cert.KernelIdeal.Gen
open Idealize.ShloMosaic Idealize.ShloMosaic.TcCoe Idealize.SL.Sem Idealize.ShloMosaic.StableHlo

variable {F : FTy → Type} [FloatOps F]

/-! ## Each stretch, from any contents -/

section Stretches
variable (W : Valuation τ sig (Elt F))

/-- The opening stretch: the edge rows and the weight halves, the arguments untouched. -/
theorem ops0_v1 : after hostOps0 W (Proc.devRef .tc main_v1) = edgeRow0 (W (Proc.devRef .tc main_arg1)) := by
  unfold edgeRow0; after_results; rfl
theorem ops0_v3 : after hostOps0 W (Proc.devRef .tc main_v3) = edgeRow1 (W (Proc.devRef .tc main_arg1)) := by
  unfold edgeRow1; after_results; rfl
theorem ops0_v4 : after hostOps0 W (Proc.devRef .tc main_v4) = wHalf0 (W (Proc.devRef .tc main_arg2)) := by
  unfold wHalf0; after_results
theorem ops0_v5 : after hostOps0 W (Proc.devRef .tc main_v5) = wHalf1 (W (Proc.devRef .tc main_arg2)) := by
  unfold wHalf1; after_results
theorem ops0_arg0 : after hostOps0 W (Proc.devRef .tc main_arg0) = W (Proc.devRef .tc main_arg0) := by
  after_results
theorem ops0_arg3 : after hostOps0 W (Proc.devRef .tc main_arg3) = W (Proc.devRef .tc main_arg3) := by
  after_results

set_option maxRecDepth 200000 in
/-- The first selection: per-node scalars taken at the source words. -/
theorem ops1_v7 : after hostOps1 W (Proc.devRef .tc main_v7)
    = take2 (W (Proc.devRef .tc main_v6_0)) (W (Proc.devRef .tc main_v1)) := by
  unfold take2 inb nrm
  after_results_simp
  rfl
theorem ops1_v6_1 : after hostOps1 W (Proc.devRef .tc main_v6_1) = W (Proc.devRef .tc main_v6_1) := by
  after_results_simp
theorem ops1_v3 : after hostOps1 W (Proc.devRef .tc main_v3) = W (Proc.devRef .tc main_v3) := by
  after_results_simp
theorem ops1_v1 : after hostOps1 W (Proc.devRef .tc main_v1) = W (Proc.devRef .tc main_v1) := by
  after_results_simp
theorem ops1_arg0 : after hostOps1 W (Proc.devRef .tc main_arg0) = W (Proc.devRef .tc main_arg0) := by
  after_results_simp
theorem ops1_arg3 : after hostOps1 W (Proc.devRef .tc main_arg3) = W (Proc.devRef .tc main_arg3) := by
  after_results_simp

set_option maxRecDepth 200000 in
/-- The second selection: per-node scalars taken at the destination words. -/
theorem ops1_1_v8 : after hostOps1_1 W (Proc.devRef .tc main_v8)
    = take2 (W (Proc.devRef .tc main_v6_1)) (W (Proc.devRef .tc main_v3)) := by
  unfold take2 inb nrm
  after_results_simp
  rfl
theorem ops1_1_v7 : after hostOps1_1 W (Proc.devRef .tc main_v7) = W (Proc.devRef .tc main_v7) := by
  after_results_simp
theorem ops1_1_v3 : after hostOps1_1 W (Proc.devRef .tc main_v3) = W (Proc.devRef .tc main_v3) := by
  after_results_simp
theorem ops1_1_v1 : after hostOps1_1 W (Proc.devRef .tc main_v1) = W (Proc.devRef .tc main_v1) := by
  after_results_simp
theorem ops1_1_arg0 : after hostOps1_1 W (Proc.devRef .tc main_arg0) = W (Proc.devRef .tc main_arg0) := by
  after_results_simp
theorem ops1_1_arg3 : after hostOps1_1 W (Proc.devRef .tc main_arg3) = W (Proc.devRef .tc main_arg3) := by
  after_results_simp

/-- The two parts summed, plus the bias. -/
theorem ops1_2_v12 : after hostOps1_2 W (Proc.devRef .tc main_v12)
    = addf (addf (W (Proc.devRef .tc main_v7)) (W (Proc.devRef .tc main_v8)))
        (broadcastInDim S32x24576 ![] bcast_S_S32x24576 (shapeCast S_ (W (Proc.devRef .tc main_arg3)) shapeCasts_S1_S_)) := by
  after_results
  rfl
theorem ops1_2_v3 : after hostOps1_2 W (Proc.devRef .tc main_v3) = W (Proc.devRef .tc main_v3) := by
  after_results
theorem ops1_2_v1 : after hostOps1_2 W (Proc.devRef .tc main_v1) = W (Proc.devRef .tc main_v1) := by
  after_results
theorem ops1_2_arg0 : after hostOps1_2 W (Proc.devRef .tc main_arg0) = W (Proc.devRef .tc main_arg0) := by
  after_results

set_option maxRecDepth 200000 in
/-- The third selection: node rows taken at the source words. -/
theorem ops1_3_v13 : after hostOps1_3 W (Proc.devRef .tc main_v13)
    = take3 (W (Proc.devRef .tc main_arg0)) (W (Proc.devRef .tc main_v1)) := by
  unfold take3 inb nrm
  after_results_simp
  rfl
theorem ops1_3_v12 : after hostOps1_3 W (Proc.devRef .tc main_v12) = W (Proc.devRef .tc main_v12) := by
  after_results_simp
theorem ops1_3_v3 : after hostOps1_3 W (Proc.devRef .tc main_v3) = W (Proc.devRef .tc main_v3) := by
  after_results_simp

/-- The closing stretch: the accumulation at the normalised destination words into zeros. -/
theorem ops2_out : after hostOps2 W (Proc.devRef .tc main_v22)
    = accum (W (Proc.devRef .tc main_v3)) (W (Proc.devRef .tc main_v14)) := by
  unfold accum nrm
  after_results_simp

end Stretches

/-! ## The boundaries' contents -/

variable (m : (ℓ : Loc nD τ sig) → Buf (Elt F) ℓ) (ρ : Dev nD → PrngReg)

/-- The first region's entry: the edge rows, the weight halves, the arguments as launched. -/
theorem V1_v1 (c : Dev nD) : V1 m ρ c main_v1 = edgeRow0 (m ((c : Thread nD τ).loc main_arg1)) := ops0_v1 (W0 m ρ c)
theorem V1_v3 (c : Dev nD) : V1 m ρ c main_v3 = edgeRow1 (m ((c : Thread nD τ).loc main_arg1)) := ops0_v3 (W0 m ρ c)
theorem V1_v4 (c : Dev nD) : V1 m ρ c main_v4 = wHalf0 (m ((c : Thread nD τ).loc main_arg2)) := ops0_v4 (W0 m ρ c)
theorem V1_v5 (c : Dev nD) : V1 m ρ c main_v5 = wHalf1 (m ((c : Thread nD τ).loc main_arg2)) := ops0_v5 (W0 m ρ c)
theorem V1_arg0 (c : Dev nD) : V1 m ρ c main_arg0 = m ((c : Thread nD τ).loc main_arg0) := ops0_arg0 (W0 m ρ c)
theorem V1_arg3 (c : Dev nD) : V1 m ρ c main_arg3 = m ((c : Thread nD τ).loc main_arg3) := ops0_arg3 (W0 m ρ c)

/-- The first region leaves every buffer that is not one of its arrays as it found it. -/
theorem V2_v1 (c : Dev nD) : V2 m ρ c main_v1 = V1 m ρ c main_v1 := W2_of_ne m ρ c main_v1 (by decide)
theorem V2_v3 (c : Dev nD) : V2 m ρ c main_v3 = V1 m ρ c main_v3 := W2_of_ne m ρ c main_v3 (by decide)
theorem V2_arg3 (c : Dev nD) : V2 m ρ c main_arg3 = V1 m ρ c main_arg3 := W2_of_ne m ρ c main_arg3 (by decide)
theorem V2_arg0 (c : Dev nD) : V2 m ρ c main_arg0 = V1 m ρ c main_arg0 :=
  (W2_arr m ρ c 2).trans (((dat0 (V1 m ρ) c).arrAt_in 2 rfl _).trans (A_eq0 (V1 m ρ) c 2))

/-- The scores the gating region reads. -/
theorem V6_scores (c : Dev nD) :
    V6 m ρ c main_v12 = scores (V2 m ρ c main_v6_0) (V2 m ρ c main_v6_1) (V2 m ρ c main_v1) (V2 m ρ c main_v3) (V2 m ρ c main_arg3) :=
  calc W6 m ρ c (Proc.devRef .tc main_v12)
    _ = W5 m ρ c (Proc.devRef .tc main_v12) := ops1_3_v12 (W5 m ρ c)
    _ = addf (addf (W4 m ρ c (Proc.devRef .tc main_v7)) (W4 m ρ c (Proc.devRef .tc main_v8)))
          (broadcastInDim S32x24576 ![] bcast_S_S32x24576 (shapeCast S_ (W4 m ρ c (Proc.devRef .tc main_arg3)) shapeCasts_S1_S_)) :=
        ops1_2_v12 (W4 m ρ c)
    _ = scores (V2 m ρ c main_v6_0) (V2 m ρ c main_v6_1) (V2 m ρ c main_v1) (V2 m ρ c main_v3) (V2 m ρ c main_arg3) := by
        have h7 : W4 m ρ c (Proc.devRef .tc main_v7) = take2 (V2 m ρ c main_v6_0) (V2 m ρ c main_v1) :=
          (ops1_1_v7 (W3 m ρ c)).trans (ops1_v7 (W2 m ρ c))
        have h8 : W4 m ρ c (Proc.devRef .tc main_v8) = take2 (V2 m ρ c main_v6_1) (V2 m ρ c main_v3) :=
          (ops1_1_v8 (W3 m ρ c)).trans (congrArg₂ take2 (ops1_v6_1 (W2 m ρ c)) (ops1_v3 (W2 m ρ c)))
        have h3 : W4 m ρ c (Proc.devRef .tc main_arg3) = V2 m ρ c main_arg3 :=
          (ops1_1_arg3 (W3 m ρ c)).trans (ops1_arg3 (W2 m ρ c))
        unfold scores
        rw [h7, h8, h3]

/-- The rows the gating region reads. -/
theorem V6_rows (c : Dev nD) :
    V6 m ρ c main_v13 = take3 (V2 m ρ c main_arg0) (V2 m ρ c main_v1) :=
  calc W6 m ρ c (Proc.devRef .tc main_v13)
    _ = take3 (W5 m ρ c (Proc.devRef .tc main_arg0)) (W5 m ρ c (Proc.devRef .tc main_v1)) := ops1_3_v13 (W5 m ρ c)
    _ = take3 (V2 m ρ c main_arg0) (V2 m ρ c main_v1) := by
        have ha : W5 m ρ c (Proc.devRef .tc main_arg0) = V2 m ρ c main_arg0 :=
          (ops1_2_arg0 (W4 m ρ c)).trans ((ops1_1_arg0 (W3 m ρ c)).trans (ops1_arg0 (W2 m ρ c)))
        have hv : W5 m ρ c (Proc.devRef .tc main_v1) = V2 m ρ c main_v1 :=
          (ops1_2_v1 (W4 m ρ c)).trans ((ops1_1_v1 (W3 m ρ c)).trans (ops1_v1 (W2 m ρ c)))
        rw [ha, hv]

/-- The destination words pass through the four stretches untouched. -/
theorem V6_v3 (c : Dev nD) : V6 m ρ c main_v3 = V2 m ρ c main_v3 :=
  calc W6 m ρ c (Proc.devRef .tc main_v3)
    _ = W5 m ρ c (Proc.devRef .tc main_v3) := ops1_3_v3 (W5 m ρ c)
    _ = W4 m ρ c (Proc.devRef .tc main_v3) := ops1_2_v3 (W4 m ρ c)
    _ = W3 m ρ c (Proc.devRef .tc main_v3) := ops1_1_v3 (W3 m ρ c)
    _ = W2 m ρ c (Proc.devRef .tc main_v3) := ops1_v3 (W2 m ρ c)

/-- The second region leaves the destination words as it found them. -/
theorem V7_v3 (c : Dev nD) : V7 m ρ c main_v3 = V6 m ρ c main_v3 := W7_of_ne m ρ c main_v3 (by decide)

/-- The result: the second region's output array accumulated at the normalised destination words. -/
theorem W8_out (c : Dev nD) :
    W8 m ρ c (Proc.devRef .tc main_v22) = accum (V7 m ρ c main_v3) (V7 m ρ c main_v14) := ops2_out (W7 m ρ c)

end Cert.KernelIdeal.HostValue

end
-- ==== Proof.Payloads.lean ====
/-
  The two kernel bodies' arithmetic, read at one index, at the ideal values.

  The first body multiplies a [32, 256, 128] block of node features by one row of 128 weights, spread over the
  block's first two axes, and sums the products over the last axis: at (b, r) it stores
      ∑ₖ block (b, r, k) · row (0, k),
  once for each of the two halves of the weights. The sum starts from the zero word, which is the sum's neutral
  element, so no initial term is left in front of it.
  The second body multiplies a [32, 256, 128] block of gathered rows by the logistic of a [32, 256] block of scores,
  spread over the last axis: at (b, r, d) it stores  rows (b, r, d) · σ (scores (b, r)).
-/
import proofs.«156650_j53772990546137_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-! ## Layout: one row of weights spread over a block, one column of scores spread over the features -/

/-- A [128] array cast to [1, 1, 128] reads, at (u, v, k), the operand at k, whatever the unit coordinates. -/
theorem shapeCast_a_11a_apply {α : Type} {a : ℕ} (x : (⟨1, ![a]⟩ : Shape).Idx → α)
    (h : (⟨1, ![a]⟩ : Shape).ShapeCasts ⟨3, ![1, 1, a]⟩) (u v : Fin 1) (k : Fin a) :
    shapeCast ⟨3, ![1, 1, a]⟩ x h (ix3 u v k) = x (ix1 k) :=
  shapeCast_apply x h _ _ (by
    have hu : u.val = 0 := by omega
    have hv : v.val = 0 := by omega
    rw [Shape.rowMajor_val_three, Shape.rowMajor_val_one]
    show k.val = (u.val * 1 + v.val) * a + k.val
    simp only [hu, hv, Nat.zero_mul, Nat.zero_add])

/-- A [1, 1, c] array broadcast to [a, b, c] reads, at (p, q, k), the operand's one row at k. -/
theorem broadcastTo_11c_abc_apply {α : Type} {a b c : ℕ} (v : (⟨3, ![1, 1, c]⟩ : Shape).Idx → α)
    (h : (⟨3, ![1, 1, c]⟩ : Shape).Broadcasts ⟨3, ![a, b, c]⟩) (p : Fin a) (q : Fin b) (k : Fin c) :
    broadcastTo ⟨3, ![a, b, c]⟩ v h (ix3 p q k) = v (ix3 (0 : Fin 1) (0 : Fin 1) k) := by
  refine broadcastTo_apply v h (ix3 p q k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- An [a, b] array cast to [a, b, 1] reads, at (p, q, u), the operand at (p, q), whatever the unit coordinate. -/
theorem shapeCast_ab_ab1_apply {α : Type} {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- An [a, b, 1] array broadcast to [a, b, c], with 1 < a and 1 < b, reads, at (p, q, d), the operand's column
    entry at (p, q). -/
theorem broadcastTo_ab1_abc_apply {α : Type} {a b c : ℕ} (ha : a ≠ 1) (hb : b ≠ 1)
    (v : (⟨3, ![a, b, 1]⟩ : Shape).Idx → α)
    (h : (⟨3, ![a, b, 1]⟩ : Shape).Broadcasts ⟨3, ![a, b, c]⟩) (p : Fin a) (q : Fin b) (d : Fin c) :
    broadcastTo ⟨3, ![a, b, c]⟩ v h (ix3 p q d) = v (ix3 p q (0 : Fin 1)) := by
  refine broadcastTo_apply v h (ix3 p q d) (ix3 p q (0 : Fin 1)) fun ax => ?_
  match ax with
  | ⟨0, _⟩ =>
    show p.val = if a = 1 then 0 else p.val
    rw [if_neg ha]
  | ⟨1, _⟩ =>
    show q.val = if b = 1 then 0 else q.val
    rw [if_neg hb]
  | ⟨2, _⟩ => rfl

/-- The row of weights as the first body spreads it: cast to itself, to [128], to [1, 1, 128], broadcast over the
    block; at (b, r, k) it is the row's entry k. -/
theorem row_apply (v1 : FVec Ideal S1x128 .f32) (b : Fin 32) (r : Fin 256) (k : Fin 128) :
    broadcastTo S32x256x128
        (shapeCast S1x1x128
          (shapeCast S128 (shapeCast S1x128 v1 shapeCasts_S1x128_S1x128) shapeCasts_S1x128_S128)
          shapeCasts_S128_S1x1x128)
        broadcasts_S1x1x128_S32x256x128 (ix3 b r k)
      = v1 (ix2 (0 : Fin 1) k) := by
  refine (broadcastTo_11c_abc_apply _ broadcasts_S1x1x128_S32x256x128 b r k).trans ?_
  refine (shapeCast_a_11a_apply _ shapeCasts_S128_S1x1x128 (0 : Fin 1) (0 : Fin 1) k).trans ?_
  refine (shapeCast_1a_a_apply _ shapeCasts_S1x128_S128 k).trans ?_
  rw [shapeCast_self]

/-- The source index over (b, r) with coordinate k on the summed last axis is (b, r, k). -/
theorem lift_ix (h : S32x256x128.Reduces [2] S32x256) (b : Fin 32) (r : Fin 256) (k : Fin 128) :
    h.lift (ix2 b r) k = ix3 b r k := by
  funext c
  match c with
  | ⟨0, _⟩ => rfl
  | ⟨1, _⟩ => rfl
  | ⟨2, _⟩ => rfl

/-- A sum over the last axis of a [32, 256, 128] block from the zero word, at (b, r): the sum over k of the block
    at (b, r, k). -/
theorem lane_sum_apply (src : FVec Ideal S32x256x128 .f32) (h : S32x256x128.Reduces [2] S32x256)
    (hφ : FKind.Formats .f32) (hacc : (0x00000000#32 : BitVec 32) = FKind.add.neutral .f32 hφ)
    (b : Fin 32) (r : Fin 256) :
    multiReduction (F := Ideal) .add [2] S32x256 src 0x00000000#32 h hφ hacc (ix2 b r)
      = ∑ k : Fin 128, src (ix3 b r k) := by
  refine (Ideal.multiReduction_add_single src 0x00000000#32 h hφ hacc (ix2 b r)).trans ?_
  exact Finset.sum_congr rfl fun k _ => congrArg src (lift_ix h b r k)

/-! ## The two bodies -/

/-- The node-gate body's first stored value at (b, r): the block's row (b, r) against the row of weights. -/
theorem pay1_apply (v0 : Vec Ideal S32x256x128 .f32) (v1 : Vec Ideal S1x128 .f32) (b : Fin 32) (r : Fin 256) :
    k0_pay1 (F := Ideal) v0 v1 (ix2 b r) = ∑ k : Fin 128, v0 (ix3 b r k) * v1 (ix2 (0 : Fin 1) k) := by
  unfold k0_pay1
  refine (lane_sum_apply _ reduces_S32x256x128_S32x256 (.inl rfl) rfl b r).trans ?_
  refine Finset.sum_congr rfl fun k _ => ?_
  refine (mulf_apply _ _ _).trans ?_
  exact congrArg (v0 (ix3 b r k) * ·) (row_apply v1 b r k)

/-- The node-gate body's second stored value at (b, r): the same, against the other row of weights. -/
theorem pay2_apply (v0 : Vec Ideal S32x256x128 .f32) (v4 : Vec Ideal S1x128 .f32) (b : Fin 32) (r : Fin 256) :
    k0_pay2 (F := Ideal) v0 v4 (ix2 b r) = ∑ k : Fin 128, v0 (ix3 b r k) * v4 (ix2 (0 : Fin 1) k) := by
  unfold k0_pay2
  refine (lane_sum_apply _ reduces_S32x256x128_S32x256 (.inl rfl) rfl b r).trans ?_
  refine Finset.sum_congr rfl fun k _ => ?_
  refine (mulf_apply _ _ _).trans ?_
  exact congrArg (v0 (ix3 b r k) * ·) (row_apply v4 b r k)

/-- The gate body's stored value at (b, r, d): the gathered row's entry times the logistic of the edge's score. -/
theorem gate_pay_apply (v0 : Vec Ideal S32x256x128 .f32) (v2 : Vec Ideal S32x256 .f32) (b : Fin 32) (r : Fin 256)
    (d : Fin 128) :
    k1_pay1 (F := Ideal) v0 v2 (ix3 b r d) = v0 (ix3 b r d) * Ideal.logistic (v2 (ix2 b r)) := by
  unfold k1_pay1
  refine (mulf_apply _ _ _).trans ?_
  rw [shapeCast_self, shapeCast_self]
  refine congrArg (v0 (ix3 b r d) * ·) ?_
  refine (broadcastTo_ab1_abc_apply (by decide) (by decide) _ broadcasts_S32x256x1_S32x256x128 b r d).trans ?_
  refine (shapeCast_ab_ab1_apply _ shapeCasts_S32x256_S32x256x1 b r (0 : Fin 1)).trans ?_
  rfl

end Cert.KernelIdeal.Pay

end
-- ==== Proof.NodeScores.lean ====
/-
  What the first kernel region leaves in its two output arrays, as functions of the whole arrays it reads.

  The region walks the 4096 nodes in 16 blocks of 256. At block t it reads rows 256·t … 256·t + 255 of the node
  features (all 32 batch entries, all 128 features) and the two rows of 128 weights, and writes, for each batch entry
  b and each node n of the block, the sum over k of x (b, n, k) · w (0, k) — once against each row of weights — to
  position (b, n) of the matching output array. The 16 blocks tile the [32, 4096] outputs, so after the region each
  output array is, at every (b, n), that sum: the node's partial score against one half of the weights.
-/
import proofs.«156650_j53772990546137_2_alg».proof.Proof.Gen.KernelIdeal.Frame
import proofs.«156650_j53772990546137_2_alg».proof.Proof.Payloads
import Idealize.ShloMosaic.Lib.Pipeline.Value
import Idealize.ShloMosaic.Lib.ValueIdx

noncomputable section

open scoped BigOperators

namespace Cert.KernelIdeal.RegionValue

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! ## The scores as one function of the arrays -/

/-- A node's partial score against one row of weights, for every batch entry and node. -/
def rowDot (x : FVec Ideal S32x4096x128 .f32) (w : FVec Ideal S1x128 .f32) : FVec Ideal S32x4096 .f32 :=
  fun j => ∑ k : Fin 128, x (ix3 (j 0) (j 1) k) * w (ix2 (0 : Fin 1) k)

/-! ## The index maps over the grid -/

theorem hz2 : (![0, 0] : Fin 2 → Nat) = fun _ => 0 := funext fun a => by fin_cases a <;> rfl
theorem hz3 : (![0, 0, 0] : Fin 3 → Nat) = fun _ => 0 := funext fun a => by fin_cases a <;> rfl

/-- The block indices at grid point t, decided over the grid: the weights' blocks stay at (0, 0); the features' block is
    (0, t, 0); each output's block is (0, t). -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 3) = 0 ∧ win0_2.index t (1 : Fin 3) = t.val ∧ win0_2.index t (2 : Fin 3) = 0
    ∧ win0_3.index t (0 : Fin 2) = 0 ∧ win0_3.index t (1 : Fin 2) = t.val
    ∧ win0_4.index t (0 : Fin 2) = 0 ∧ win0_4.index t (1 : Fin 2) = t.val :=
  (by decide +kernel : ∀ t : Fin grid0.N, _)

/-! ## The input blocks, read off the arrays -/

/-- The features' block at point t holds, at (b, r, k), the array at (b, 256·t + r, k). -/
theorem blk_x_apply (c : Dev nD) (t : Fin cfg0.N) (b : Fin 32) (r : Fin 256) (k : Fin 128) (i : S32x4096x128.Idx)
    (h0 : (i 0).val = b.val) (h1 : (i 1).val = t.val * 256 + r.val) (h2 : (i 2).val = k.val) :
    (iblk0 V c 2 t : Vec Ideal S32x256x128 .f32) (ix3 b r k)
      = (V c main_arg0 : S32x4096x128.Idx → Elt Ideal .f32) i := by
  obtain ⟨-, -, -, -, e20, e21, e22, -⟩ := idx_facts t
  unfold iblk0
  rw [View.read_apply]
  show V c main_arg0 _ = V c main_arg0 _
  congr 1
  funext a
  apply Fin.ext
  match a with
  | ⟨0, _⟩ => show win0_2.index t (0 : Fin 3) * 32 + 1 * b.val = (i 0).val; rw [e20, h0]; omega
  | ⟨1, _⟩ => show win0_2.index t (1 : Fin 3) * 256 + 1 * r.val = (i 1).val; rw [e21, h1]; omega
  | ⟨2, _⟩ => show win0_2.index t (2 : Fin 3) * 128 + 1 * k.val = (i 2).val; rw [e22, h2]; omega

/-- The first row of weights' block at every point is the row itself. -/
theorem blk_w0_apply (c : Dev nD) (t : Fin cfg0.N) (k : Fin 128) :
    (iblk0 V c 0 t : Vec Ideal S1x128 .f32) (ix2 (0 : Fin 1) k)
      = (V c main_v4 : S1x128.Idx → Elt Ideal .f32) (ix2 (0 : Fin 1) k) := by
  obtain ⟨e00, e01, -⟩ := idx_facts t
  unfold iblk0
  rw [View.read_apply]
  show V c main_v4 _ = V c main_v4 _
  congr 1
  funext a
  apply Fin.ext
  match a with
  | ⟨0, _⟩ => show win0_0.index t (0 : Fin 2) * 1 + 1 * 0 = 0; rw [e00]
  | ⟨1, _⟩ => show win0_0.index t (1 : Fin 2) * 128 + 1 * k.val = k.val; rw [e01]; omega

/-- The second row of weights' block at every point is the row itself. -/
theorem blk_w1_apply (c : Dev nD) (t : Fin cfg0.N) (k : Fin 128) :
    (iblk0 V c 1 t : Vec Ideal S1x128 .f32) (ix2 (0 : Fin 1) k)
      = (V c main_v5 : S1x128.Idx → Elt Ideal .f32) (ix2 (0 : Fin 1) k) := by
  obtain ⟨-, -, e10, e11, -⟩ := idx_facts t
  unfold iblk0
  rw [View.read_apply]
  show V c main_v5 _ = V c main_v5 _
  congr 1
  funext a
  apply Fin.ext
  match a with
  | ⟨0, _⟩ => show win0_1.index t (0 : Fin 2) * 1 + 1 * 0 = 0; rw [e10]
  | ⟨1, _⟩ => show win0_1.index t (1 : Fin 2) * 128 + 1 * k.val = k.val; rw [e11]; omega

/-! ## What each point writes back -/

/-- What point t writes back to the first output is block t of the scores against the first row of weights. -/
theorem flushed_eq3 (c : Dev nD) (t : Fin cfg0.N) :
    (dat0 V c).flushed 3 t
      = ((cfg0.win 3).blk t).view.read (Elt Ideal) (rowDot (V c main_arg0) (V c main_v4)) := by
  show (cfg0.win 3).cut (grid0.coords t) ((dat0 V c).after 3 t) = _
  rw [after0_3]
  unfold out0_3
  rw [View.canon_unit_zero hz2]
  simp only [View.ld_unit_zero (S := S32x256x128) hz3, View.ld_unit_zero (S := S1x128) hz2]
  refine funext fun (j : S32x256.Idx) => ?_
  obtain ⟨b, r, rfl⟩ : ∃ (b : Fin 32) (r : Fin 256), j = ix2 b r := ⟨j 0, j 1, eq_ix2 j⟩
  obtain ⟨-, -, -, -, -, -, -, e30, e31, -, -⟩ := idx_facts t
  show k0_pay1 (F := Ideal) (iblk0 V c 2 t) (iblk0 V c 0 t) (ix2 b r)
      = rowDot (V c main_arg0) (V c main_v4) (((cfg0.win 3).blk t).view.emb (ix2 b r))
  refine (Pay.pay1_apply _ _ b r).trans (Finset.sum_congr rfl fun k _ => ?_)
  refine congrArg₂ (· * ·) ?_ (blk_w0_apply V c t k)
  refine blk_x_apply V c t b r k _ ?_ ?_ rfl
  · show win0_3.index t (0 : Fin 2) * 32 + 1 * b.val = b.val
    rw [e30]; omega
  · show win0_3.index t (1 : Fin 2) * 256 + 1 * r.val = t.val * 256 + r.val
    rw [e31]; omega

/-- What point t writes back to the second output is block t of the scores against the second row of weights. -/
theorem flushed_eq4 (c : Dev nD) (t : Fin cfg0.N) :
    (dat0 V c).flushed 4 t
      = ((cfg0.win 4).blk t).view.read (Elt Ideal) (rowDot (V c main_arg0) (V c main_v5)) := by
  show (cfg0.win 4).cut (grid0.coords t) ((dat0 V c).after 4 t) = _
  rw [after0_4]
  unfold out0_4
  rw [View.canon_unit_zero hz2]
  simp only [View.ld_unit_zero (S := S32x256x128) hz3, View.ld_unit_zero (S := S1x128) hz2]
  refine funext fun (j : S32x256.Idx) => ?_
  obtain ⟨b, r, rfl⟩ : ∃ (b : Fin 32) (r : Fin 256), j = ix2 b r := ⟨j 0, j 1, eq_ix2 j⟩
  obtain ⟨-, -, -, -, -, -, -, -, -, e40, e41⟩ := idx_facts t
  show k0_pay2 (F := Ideal) (iblk0 V c 2 t) (iblk0 V c 1 t) (ix2 b r)
      = rowDot (V c main_arg0) (V c main_v5) (((cfg0.win 4).blk t).view.emb (ix2 b r))
  refine (Pay.pay2_apply _ _ b r).trans (Finset.sum_congr rfl fun k _ => ?_)
  refine congrArg₂ (· * ·) ?_ (blk_w1_apply V c t k)
  refine blk_x_apply V c t b r k _ ?_ ?_ rfl
  · show win0_4.index t (0 : Fin 2) * 32 + 1 * b.val = b.val
    rw [e40]; omega
  · show win0_4.index t (1 : Fin 2) * 256 + 1 * r.val = t.val * 256 + r.val
    rw [e41]; omega

/-! ## The blocks tile the output arrays -/

/-- An index of the first output is in point t's block iff each coordinate is in the block's range on its axis. -/
theorem mem_blk3 (t : Fin cfg0.N) (i : S32x4096.Idx) :
    i ∈ ((cfg0.win 3).blk t).view.set ↔ ∀ a : Fin 2, win0_3.index t a * S32x256.size a ≤ (i a).val
      ∧ (i a).val < win0_3.index t a * S32x256.size a + S32x256.size a := by
  show i ∈ ((View.whole main_v6_0).slice (win0_3.rect t)).set ↔ _
  rw [View.set_slice_whole, Rect.mem_set_unit]
  exact Iff.rfl

/-- The same for the second output. -/
theorem mem_blk4 (t : Fin cfg0.N) (i : S32x4096.Idx) :
    i ∈ ((cfg0.win 4).blk t).view.set ↔ ∀ a : Fin 2, win0_4.index t a * S32x256.size a ≤ (i a).val
      ∧ (i a).val < win0_4.index t a * S32x256.size a + S32x256.size a := by
  show i ∈ ((View.whole main_v6_1).slice (win0_4.rect t)).set ↔ _
  rw [View.set_slice_whole, Rect.mem_set_unit]
  exact Iff.rfl

theorem N0 : cfg0.N = 16 := by decide

/-- Node n lies in the block of point n / 256, which writes back: every index of the first output is covered. -/
theorem cover3 (i : S32x4096.Idx) :
    ∃ t : Fin cfg0.N, (cfg0.win 3).flush t = true ∧ i ∈ ((cfg0.win 3).blk t).view.set := by
  have hi0 : (i 0).val < 32 := (i 0).isLt
  have hi1 : (i 1).val < 4096 := (i 1).isLt
  have hN := N0
  have ht : (i 1).val / 256 < cfg0.N := by omega
  obtain ⟨-, -, -, -, -, -, -, e30, e31, -, -⟩ := idx_facts ⟨(i 1).val / 256, ht⟩
  refine ⟨⟨(i 1).val / 256, ht⟩, flush0_3 _, ?_⟩
  rw [mem_blk3]
  intro a
  match a with
  | ⟨0, _⟩ =>
    show win0_3.index ⟨(i 1).val / 256, ht⟩ (0 : Fin 2) * 32 ≤ (i 0).val
      ∧ (i 0).val < win0_3.index ⟨(i 1).val / 256, ht⟩ (0 : Fin 2) * 32 + 32
    rw [e30]; omega
  | ⟨1, _⟩ =>
    show win0_3.index ⟨(i 1).val / 256, ht⟩ (1 : Fin 2) * 256 ≤ (i 1).val
      ∧ (i 1).val < win0_3.index ⟨(i 1).val / 256, ht⟩ (1 : Fin 2) * 256 + 256
    rw [e31]; show (i 1).val / 256 * 256 ≤ (i 1).val ∧ (i 1).val < (i 1).val / 256 * 256 + 256; omega

/-- The same for the second output. -/
theorem cover4 (i : S32x4096.Idx) :
    ∃ t : Fin cfg0.N, (cfg0.win 4).flush t = true ∧ i ∈ ((cfg0.win 4).blk t).view.set := by
  have hi0 : (i 0).val < 32 := (i 0).isLt
  have hi1 : (i 1).val < 4096 := (i 1).isLt
  have hN := N0
  have ht : (i 1).val / 256 < cfg0.N := by omega
  obtain ⟨-, -, -, -, -, -, -, -, -, e40, e41⟩ := idx_facts ⟨(i 1).val / 256, ht⟩
  refine ⟨⟨(i 1).val / 256, ht⟩, flush0_4 _, ?_⟩
  rw [mem_blk4]
  intro a
  match a with
  | ⟨0, _⟩ =>
    show win0_4.index ⟨(i 1).val / 256, ht⟩ (0 : Fin 2) * 32 ≤ (i 0).val
      ∧ (i 0).val < win0_4.index ⟨(i 1).val / 256, ht⟩ (0 : Fin 2) * 32 + 32
    rw [e40]; omega
  | ⟨1, _⟩ =>
    show win0_4.index ⟨(i 1).val / 256, ht⟩ (1 : Fin 2) * 256 ≤ (i 1).val
      ∧ (i 1).val < win0_4.index ⟨(i 1).val / 256, ht⟩ (1 : Fin 2) * 256 + 256
    rw [e41]; show (i 1).val / 256 * 256 ≤ (i 1).val ∧ (i 1).val < (i 1).val / 256 * 256 + 256; omega

/-! ## The two output arrays after the region -/

/-- After the region the first output array holds every node's score against the first row of weights. -/
theorem node_scores_src (c : Dev nD) :
    (dat0 V c).arrAt 3 cfg0.N = rowDot (V c main_arg0) (V c main_v4) :=
  (dat0 V c).arrAt_eq_of_cover 3 (rowDot (V c main_arg0) (V c main_v4)) (fun t _ => flushed_eq3 V c t) cover3

/-- After the region the second output array holds every node's score against the second row of weights. -/
theorem node_scores_dst (c : Dev nD) :
    (dat0 V c).arrAt 4 cfg0.N = rowDot (V c main_arg0) (V c main_v5) :=
  (dat0 V c).arrAt_eq_of_cover 4 (rowDot (V c main_arg0) (V c main_v5)) (fun t _ => flushed_eq4 V c t) cover4

end Cert.KernelIdeal.RegionValue

end
-- ==== Proof.GatedRows.lean ====
/-
  The gating region's output array as one function of the two arrays it reads.

  The region runs over 96 blocks of 256 edges. At block `t` it reads the scores of edges `256 t … 256 t + 255`
  (all 32 batch entries) and the 128-feature rows of the same edges, and stores, for every batch entry, edge
  and feature, the row's entry times the logistic function of the edge's score. Block `t` of the output is
  therefore block `t` of ONE array — `gated s r (b, e, d) = r (b, e, d) · σ (s (b, e))` — and the blocks tile
  the output, so the output ends holding that array.
-/
import proofs.«156650_j53772990546137_2_alg».proof.Proof.Gen.KernelIdeal.Frame
import proofs.«156650_j53772990546137_2_alg».proof.Proof.Payloads
import Idealize.ShloMosaic.Lib.Pipeline.Value
import Idealize.ShloMosaic.Lib.ValueIdx

set_option maxRecDepth 16384

noncomputable section

namespace Cert.KernelIdeal.GateValue

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- Each row entry times the logistic function of its edge's score. -/
def gated (s : FVec Ideal S32x24576 .f32) (r : FVec Ideal S32x24576x128 .f32) : FVec Ideal S32x24576x128 .f32 :=
  fun i => r i * Ideal.logistic (s (ix2 (i 0) (i 1)))

theorem hz2 : (![0, 0] : Fin 2 → Nat) = fun _ => 0 := funext fun a => by fin_cases a <;> rfl
theorem hz3 : (![0, 0, 0] : Fin 3 → Nat) = fun _ => 0 := funext fun a => by fin_cases a <;> rfl

/-- The three windows' block indices at point `t`: block `t` along the edge axis, block `0` along the others. -/
theorem idx_facts : ∀ t : Fin cfg1.N, win1_0.index t (0 : Fin 2) = 0 ∧ win1_0.index t (1 : Fin 2) = t.val
    ∧ win1_1.index t (0 : Fin 3) = 0 ∧ win1_1.index t (1 : Fin 3) = t.val ∧ win1_1.index t (2 : Fin 3) = 0
    ∧ win1_2.index t (0 : Fin 3) = 0 ∧ win1_2.index t (1 : Fin 3) = t.val ∧ win1_2.index t (2 : Fin 3) = 0 :=
  (by decide +kernel : ∀ t : Fin grid1.N, _)

/-- What point `t` writes back is block `t` of `gated` of the scores and the rows as the region finds them. -/
theorem flushed_eq (c : Dev nD) (t : Fin cfg1.N) :
    (dat1 V c).flushed 2 t = ((cfg1.win 2).blk t).view.read (Elt Ideal) (gated (V c main_v12) (V c main_v13)) := by
  show (cfg1.win 2).cut (grid1.coords t) ((dat1 V c).after 2 t) = _
  rw [after1_2]
  unfold out1_2
  rw [View.canon_unit_zero hz3]
  simp only [View.ld_unit_zero (S := S32x256x128) hz3, View.ld_unit_zero (S := S32x256) hz2]
  obtain ⟨e0, e1, e2, e3, e4, e5, e6, e7⟩ := idx_facts t
  funext j
  obtain ⟨b, r, d, rfl⟩ : ∃ (b : Fin 32) (r : Fin 256) (d : Fin 128), j = ix3 b r d := ⟨j 0, j 1, j 2, eq_ix3 j⟩
  show k1_pay1 (iblk1 V c 1 t) (iblk1 V c 0 t) (ix3 b r d)
      = gated (V c main_v12) (V c main_v13) (((cfg1.win 2).blk t).view.emb (ix3 b r d))
  refine (Cert.KernelIdeal.Pay.gate_pay_apply (iblk1 V c 1 t) (iblk1 V c 0 t) b r d).trans ?_
  unfold gated
  have hrow : iblk1 V c 1 t (ix3 b r d) = V c main_v13 (((cfg1.win 2).blk t).view.emb (ix3 b r d)) := by
    show V c main_v13 (((cfg1.win 1).blk t).view.emb (ix3 b r d)) = V c main_v13 (((cfg1.win 2).blk t).view.emb (ix3 b r d))
    refine congrArg (V c main_v13) ?_
    funext a; apply Fin.ext
    match a with
    | ⟨0, _⟩ => show win1_1.index t (0 : Fin 3) * 32 + 1 * b.val = win1_2.index t (0 : Fin 3) * 32 + 1 * b.val; omega
    | ⟨1, _⟩ => show win1_1.index t (1 : Fin 3) * 256 + 1 * r.val = win1_2.index t (1 : Fin 3) * 256 + 1 * r.val; omega
    | ⟨2, _⟩ => show win1_1.index t (2 : Fin 3) * 128 + 1 * d.val = win1_2.index t (2 : Fin 3) * 128 + 1 * d.val; omega
  have hsc : iblk1 V c 0 t (ix2 b r)
      = V c main_v12 (ix2 ((((cfg1.win 2).blk t).view.emb (ix3 b r d)) 0) ((((cfg1.win 2).blk t).view.emb (ix3 b r d)) 1)) := by
    show V c main_v12 (((cfg1.win 0).blk t).view.emb (ix2 b r)) = _
    refine congrArg (V c main_v12) ?_
    funext a; apply Fin.ext
    match a with
    | ⟨0, _⟩ => show win1_0.index t (0 : Fin 2) * 32 + 1 * b.val = win1_2.index t (0 : Fin 3) * 32 + 1 * b.val; omega
    | ⟨1, _⟩ => show win1_0.index t (1 : Fin 2) * 256 + 1 * r.val = win1_2.index t (1 : Fin 3) * 256 + 1 * r.val; omega
  rw [hrow, hsc]

/-- An index of the output is in point `t`'s block iff each coordinate is in the block's range on its axis. -/
theorem mem_blk (t : Fin cfg1.N) (i : S32x24576x128.Idx) :
    i ∈ ((cfg1.win 2).blk t).view.set ↔ ∀ a : Fin 3, win1_2.index t a * S32x256x128.size a ≤ (i a).val ∧ (i a).val < win1_2.index t a * S32x256x128.size a + S32x256x128.size a := by
  show i ∈ ((View.whole main_v14).slice (win1_2.rect t)).set ↔ _
  rw [View.set_slice_whole, Rect.mem_set_unit]
  exact Iff.rfl

/-- Every index of the output lies in the block of the point its edge falls in. -/
theorem cover (i : S32x24576x128.Idx) :
    ∃ t : Fin cfg1.N, (cfg1.win 2).flush t = true ∧ i ∈ ((cfg1.win 2).blk t).view.set := by
  have hi0 : (i 0).val < 32 := (i 0).isLt
  have hi1 : (i 1).val < 24576 := (i 1).isLt
  have hi2 : (i 2).val < 128 := (i 2).isLt
  have hN : cfg1.N = 96 := N_1
  let t : Fin cfg1.N := ⟨(i 1).val / 256, by rw [hN]; omega⟩
  obtain ⟨e0, e1, e2, e3, e4, e5, e6, e7⟩ := idx_facts t
  have ht : t.val = (i 1).val / 256 := rfl
  refine ⟨t, flush1_2 t, ?_⟩
  rw [mem_blk]
  intro a
  match a with
  | ⟨0, _⟩ => show win1_2.index t (0 : Fin 3) * 32 ≤ (i 0).val ∧ (i 0).val < win1_2.index t (0 : Fin 3) * 32 + 32; omega
  | ⟨1, _⟩ => show win1_2.index t (1 : Fin 3) * 256 ≤ (i 1).val ∧ (i 1).val < win1_2.index t (1 : Fin 3) * 256 + 256; omega
  | ⟨2, _⟩ => show win1_2.index t (2 : Fin 3) * 128 ≤ (i 2).val ∧ (i 2).val < win1_2.index t (2 : Fin 3) * 128 + 128; omega

/-- The region's output array after the run. -/
theorem gated_rows (c : Dev nD) : (dat1 V c).arrAt 2 cfg1.N = gated (V c main_v12) (V c main_v13) :=
  (dat1 V c).arrAt_eq_of_cover 2 (gated (V c main_v12) (V c main_v13)) (fun t _ => flushed_eq V c t) (cover)

end Cert.KernelIdeal.GateValue

end
-- ==== Proof.TakeAt.lean ====
/-
  The kernel's three row selections, read at an index, when every edge word is a node number.

  `take` normalises a row of index words (a negative word is moved up by 4096), gathers the operand's rows at the
  normalised words (clamped into `[0, 4095]`), and replaces by a fill value the rows whose normalised word lies outside
  `[0, 4095]`. When every word of the row lies in `[0, 4096)`: normalising leaves each word alone; the in-bounds bit is 1
  at every position, because an "and"-fold from 1 over bits that are all 1 is 1; so the select keeps the gathered row,
  and the clamped row number is the word's value modulo 4096. The two rows of the edge array, cut out by a slice and a
  reshape, read at `e` the edge array at `(0, e)` and `(1, e)`.
-/
import proofs.«156650_j53772990546137_2_alg».proof.Proof.HostDefs
import proofs.«156650_j53772990546137_2_alg».proof.Proof.Spec
import proofs.«156650_j53772990546137_2_alg».proof.Proof.LibGatherRows
import Idealize.ShloMosaic.Lib.ValueIdx
import Idealize.ShloMosaic.Lib.Pipeline.Value
import Idealize.ShloMosaic.PureOps.Reduce
import Idealize.ShloMosaic.Lib.ReduceAll

noncomputable section

namespace Cert.KernelIdeal.TakeAt

open Cert.KernelIdeal Cert.KernelIdeal.Gen Cert.KernelIdeal.HostValue
open Idealize.ShloMosaic Idealize.ShloMosaic.ValueIdx

variable {F : FTy → Type} [FloatOps F]

/-! ## The rows of the edge array -/

/-- Row 0 of the edge array at `e` is the edge array at `(0, e)`. -/
theorem edgeRow0_apply (ei : IVec S2x24576 32) (e : Fin 24576) :
    edgeRow0 ei (ix1 e) = ei (ix2 (0 : Fin 2) e) := by
  unfold edgeRow0
  refine (shapeCast_apply _ _ (ix1 e) (ix2 (0 : Fin 1) e) ?_).trans ?_
  · rw [Shape.rowMajor_val_two, Shape.rowMajor_val_one]
    show (0 : Nat) * 24576 + e.val = e.val
    omega
  · refine extractStridedSlice_apply _ _ _ _ (ix2 (0 : Fin 2) e) fun a => ?_
    match a with
    | ⟨0, _⟩ => rfl
    | ⟨1, _⟩ => show e.val = 0 + e.val; omega

/-- Row 1 of the edge array at `e` is the edge array at `(1, e)`. -/
theorem edgeRow1_apply (ei : IVec S2x24576 32) (e : Fin 24576) :
    edgeRow1 ei (ix1 e) = ei (ix2 (1 : Fin 2) e) := by
  unfold edgeRow1
  refine (shapeCast_apply _ _ (ix1 e) (ix2 (0 : Fin 1) e) ?_).trans ?_
  · rw [Shape.rowMajor_val_two, Shape.rowMajor_val_one]
    show (0 : Nat) * 24576 + e.val = e.val
    omega
  · refine extractStridedSlice_apply _ _ _ _ (ix2 (1 : Fin 2) e) fun a => ?_
    match a with
    | ⟨0, _⟩ => rfl
    | ⟨1, _⟩ => show e.val = 0 + e.val; omega

/-! ## A row of words in `[0, 4096)` -/

/-- Every word of the row is a node number. -/
def RowInRange (s : IVec S24576 32) : Prop := ∀ k : S24576.Idx, 0 ≤ (s k).toInt ∧ (s k).toInt < 4096

/-- Normalising leaves a nonnegative word alone: the column of start indices reads the row. -/
theorem nrm_apply (s : IVec S24576 32) (hs : RowInRange s) (i : S24576x1.Idx) :
    nrm s i = s (ix1 (n := 24576) (i 0)) := by
  unfold nrm
  refine (broadcastInDim_apply _ _ _ i (ix1 (n := 24576) (i 0)) fun a => ?_).trans ?_
  · match a with
    | ⟨0, _⟩ => rfl
  · exact Cert.LibGatherRows.select_wrap_of_nonneg _ (hs _).1

/-- An "and"-fold from 1 over bits that are all 1 is 1. -/
theorem foldl_andi_one {ι : Type} (f : ι → BitVec 1) :
    ∀ (l : List ι) (init : BitVec 1), init = 1#1 → (∀ n ∈ l, f n = 1#1) →
      l.foldl (fun r n => IntOp.andi r (f n)) init = 1#1
  | [], init, hi, _ => hi
  | a :: l, init, hi, h => by
    refine foldl_andi_one f l _ ?_ fun n hn => h n (List.mem_cons_of_mem _ hn)
    show IntOp.andi init (f a) = 1#1
    rw [hi, h a List.mem_cons_self]
    decide

/-- Every normalised word of such a row lies in `[0, 4095]`: the in-bounds bit is 1 everywhere. -/
theorem inb_nrm (s : IVec S24576 32) (hs : RowInRange s) (j : S24576.Idx) : inb (nrm s) j = 1#1 := by
  unfold inb
  rw [Host.reduce_eq_foldl]
  refine foldl_andi_one _ _ _ rfl fun i _ => ?_
  have hi := hs (ix1 (n := 24576) (i 0))
  show IntOp.andi (IntOp.cmpi .sge (nrm s i) 0#32) (IntOp.cmpi .sle (nrm s i) 4095#32) = 1#1
  rw [nrm_apply s hs i]
  refine IntOp.andi_eq_one.2 ⟨IntOp.cmpi_sge.2 ?_, IntOp.cmpi_sle.2 ?_⟩
  · show (0 : Int) ≤ _
    exact hi.1
  · show _ ≤ (4095 : Int)
    omega

/-! ## `take` at an index -/

/-- `take` of per-node scalars at a row of node numbers reads the scalar of the node the word names. -/
theorem take2_apply (g : FVec F S32x4096 .f32) (s : IVec S24576 32) (hs : RowInRange s) (b : Fin 32) (e : Fin 24576) :
    take2 g s (ix2 b e) = g (ix2 b (⟨(s (ix1 e)).toNat % 4096, Nat.mod_lt _ (by norm_num)⟩ : Fin 4096)) := by
  unfold take2
  rw [select_apply]
  have hm : broadcastInDim S32x24576 ![1] bcast_S24576_S32x24576_1 (inb (nrm s)) (ix2 b e) = 1#1 := inb_nrm s hs _
  rw [hm, select_one]
  refine (Cert.LibGatherRows.gather_rows2_apply g (nrm s) b e).trans ?_
  refine congrArg (fun n => g (ix2 b n)) (Fin.ext ?_)
  show min (nrm s (ix2 e (0 : Fin 1))).toInt.toNat 4095 = (s (ix1 e)).toNat % 4096
  rw [nrm_apply s hs]
  exact Cert.LibGatherRows.clamp_eq_mod _ (hs _)

/-- `take` of node rows at a row of node numbers reads the row of the node the word names. -/
theorem take3_apply (x : FVec F S32x4096x128 .f32) (s : IVec S24576 32) (hs : RowInRange s) (b : Fin 32) (e : Fin 24576)
    (k : Fin 128) :
    take3 x s (ix3 b e k) = x (ix3 b (⟨(s (ix1 e)).toNat % 4096, Nat.mod_lt _ (by norm_num)⟩ : Fin 4096) k) := by
  unfold take3
  rw [select_apply]
  have hm : broadcastInDim S32x24576x128 ![1] bcast_S24576_S32x24576x128_1 (inb (nrm s)) (ix3 b e k) = 1#1 :=
    inb_nrm s hs _
  rw [hm, select_one]
  refine (Cert.LibGatherRows.gather_rows3_apply x (nrm s) b e k).trans ?_
  refine congrArg (fun n => x (ix3 b n k)) (Fin.ext ?_)
  show min (nrm s (ix2 e (0 : Fin 1))).toInt.toNat 4095 = (s (ix1 e)).toNat % 4096
  rw [nrm_apply s hs]
  exact Cert.LibGatherRows.clamp_eq_mod _ (hs _)

/-! ## At the two rows of the edge array -/

variable (ei : IVec S2x24576 32) (h : Cert.GateSpec.InRange ei)
include h

/-- The source words are node numbers. -/
theorem edgeRow0_inRange : RowInRange (edgeRow0 ei) := fun k => by
  obtain ⟨e, rfl⟩ : ∃ e : Fin 24576, k = ix1 e := ⟨k 0, eq_ix1 k⟩
  rw [edgeRow0_apply]; exact h _

/-- The destination words are node numbers. -/
theorem edgeRow1_inRange : RowInRange (edgeRow1 ei) := fun k => by
  obtain ⟨e, rfl⟩ : ∃ e : Fin 24576, k = ix1 e := ⟨k 0, eq_ix1 k⟩
  rw [edgeRow1_apply]; exact h _

/-- Per-node scalars taken at the source words: the source node's scalar. -/
theorem take2_src (g : FVec F S32x4096 .f32) (b : Fin 32) (e : Fin 24576) :
    take2 g (edgeRow0 ei) (ix2 b e) = g (ix2 b (Cert.GateSpec.node ei 0 e)) := by
  refine (take2_apply g _ (edgeRow0_inRange ei h) b e).trans ?_
  refine congrArg (fun n => g (ix2 b n)) (Fin.ext ?_)
  show (edgeRow0 ei (ix1 e)).toNat % 4096 = (ei (ix2 (0 : Fin 2) e)).toNat % 4096
  rw [edgeRow0_apply]

/-- Per-node scalars taken at the destination words: the destination node's scalar. -/
theorem take2_dst (g : FVec F S32x4096 .f32) (b : Fin 32) (e : Fin 24576) :
    take2 g (edgeRow1 ei) (ix2 b e) = g (ix2 b (Cert.GateSpec.node ei 1 e)) := by
  refine (take2_apply g _ (edgeRow1_inRange ei h) b e).trans ?_
  refine congrArg (fun n => g (ix2 b n)) (Fin.ext ?_)
  show (edgeRow1 ei (ix1 e)).toNat % 4096 = (ei (ix2 (1 : Fin 2) e)).toNat % 4096
  rw [edgeRow1_apply]

/-- Node rows taken at the source words: the source node's row. -/
theorem take3_src (x : FVec F S32x4096x128 .f32) (b : Fin 32) (e : Fin 24576) (k : Fin 128) :
    take3 x (edgeRow0 ei) (ix3 b e k) = x (ix3 b (Cert.GateSpec.node ei 0 e) k) := by
  refine (take3_apply x _ (edgeRow0_inRange ei h) b e k).trans ?_
  refine congrArg (fun n => x (ix3 b n k)) (Fin.ext ?_)
  show (edgeRow0 ei (ix1 e)).toNat % 4096 = (ei (ix2 (0 : Fin 2) e)).toNat % 4096
  rw [edgeRow0_apply]

/-- Node rows taken at the destination words: the destination node's row. -/
theorem take3_dst (x : FVec F S32x4096x128 .f32) (b : Fin 32) (e : Fin 24576) (k : Fin 128) :
    take3 x (edgeRow1 ei) (ix3 b e k) = x (ix3 b (Cert.GateSpec.node ei 1 e) k) := by
  refine (take3_apply x _ (edgeRow1_inRange ei h) b e k).trans ?_
  refine congrArg (fun n => x (ix3 b n k)) (Fin.ext ?_)
  show (edgeRow1 ei (ix1 e)).toNat % 4096 = (ei (ix2 (1 : Fin 2) e)).toNat % 4096
  rw [edgeRow1_apply]

end Cert.KernelIdeal.TakeAt

end
-- ==== Proof.KernelMsg.lean ====
/-
  The idealized kernel's message tensor is the specification's.

  The kernel contracts every node's row with each half of the weights first, takes the two scalars of an edge at its
  source and its destination word, adds the bias, and multiplies the source node's row, taken at the source word, by
  the logistic function of that score. A take at an edge word in `[0, 4096)` reads the node the word names, a half of
  the weights at `(0, k)` is the weights at `(0, k)` or `(0, 128 + k)`, and the broadcast bias is the bias: so the
  score written down is the specification's sum, term by term, and so is the message.
-/
import proofs.«156650_j53772990546137_2_alg».proof.Proof.HostDefs
import proofs.«156650_j53772990546137_2_alg».proof.Proof.NodeScores
import proofs.«156650_j53772990546137_2_alg».proof.Proof.GatedRows
import proofs.«156650_j53772990546137_2_alg».proof.Proof.TakeAt
import proofs.«156650_j53772990546137_2_alg».proof.Proof.Spec
import Idealize.ShloMosaic.Lib.Pipeline.Value
import Idealize.ShloMosaic.Lib.ValueIdx

noncomputable section

open scoped BigOperators

namespace Cert.KernelIdeal.MsgValue

open Cert.KernelIdeal Cert.KernelIdeal.Gen
open Idealize.ShloMosaic Idealize.ShloMosaic.TcCoe Idealize.ShloMosaic.ValueIdx Idealize.SL.Sem
open Cert.KernelIdeal.HostValue Cert.KernelIdeal.RegionValue Cert.KernelIdeal.GateValue Cert.KernelIdeal.TakeAt
open Cert.GateSpec

variable {F : FTy → Type} [FloatOps F]

/-- The first half of the weights at `(0, k)` is the weights at `(0, k)`. -/
theorem wHalf0_apply (w : FVec F S1x256 .f32) (k : Fin 128) :
    wHalf0 w (ix2 (0 : Fin 1) k) = w (ix2 (0 : Fin 1) (⟨k.val, by omega⟩ : Fin 256)) := by
  unfold wHalf0
  exact extractStridedSlice_apply ![0, 0] w slices_S1x256_S1x128_0_0 _ _ (fun a => match a with
    | ⟨0, _⟩ => (Nat.zero_add _).symm
    | ⟨1, _⟩ => (Nat.zero_add _).symm)

/-- The second half of the weights at `(0, k)` is the weights at `(0, 128 + k)`. -/
theorem wHalf1_apply (w : FVec F S1x256 .f32) (k : Fin 128) :
    wHalf1 w (ix2 (0 : Fin 1) k) = w (ix2 (0 : Fin 1) (⟨128 + k.val, by omega⟩ : Fin 256)) := by
  unfold wHalf1
  exact extractStridedSlice_apply ![0, 128] w slices_S1x256_S1x128_0_128 _ _ (fun a => match a with
    | ⟨0, _⟩ => (Nat.zero_add _).symm
    | ⟨1, _⟩ => rfl)

/-- The bias, reshaped to a scalar and broadcast over batch entries and edges, is the bias everywhere. -/
theorem bias_apply (b : FVec F S1 .f32) (b' : Fin 32) (e : Fin 24576) :
    broadcastInDim S32x24576 ![] bcast_S_S32x24576 (shapeCast S_ b shapeCasts_S1_S_) (ix2 b' e) = b (ix1 (0 : Fin 1)) := by
  rw [broadcastInDim_apply _ bcast_S_S32x24576 _ (ix2 b' e) ix0 (fun a => a.elim0)]
  refine shapeCast_apply b shapeCasts_S1_S_ ix0 (ix1 (0 : Fin 1)) ?_
  rw [Shape.rowMajor_val_one]
  exact (Shape.rowMajorPi_zero _ _).symm

/-- The kernel's edge scores are the specification's: the source node's partial score, the destination node's, and the
    bias. -/
theorem kernel_score (x0 : FVec Ideal S32x4096x128 .f32) (x1 : IVec S2x24576 32) (x2 : FVec Ideal S1x256 .f32)
    (x3 : FVec Ideal S1 .f32) (h : Cert.GateSpec.InRange x1) (b : Fin 32) (e : Fin 24576) :
    scores (F := Ideal) (rowDot x0 (wHalf0 x2)) (rowDot x0 (wHalf1 x2)) (edgeRow0 x1) (edgeRow1 x1) x3 (ix2 b e)
      = score x0 x1 x2 x3 b e := by
  unfold scores
  rw [addf_apply, addf_apply, take2_src x1 h, take2_dst x1 h, bias_apply]
  unfold score gateS gateD rowDot
  refine congrArg₂ (· + ·) (congrArg₂ (· + ·) ?_ ?_) rfl
  · exact Finset.sum_congr rfl fun k _ => congrArg (_ * ·) (wHalf0_apply x2 k)
  · exact Finset.sum_congr rfl fun k _ => congrArg (_ * ·) (wHalf1_apply x2 k)

/-- THE KERNEL'S MESSAGES ARE THE SPECIFICATION'S. -/
theorem kernel_msg (x0 : FVec Ideal S32x4096x128 .f32) (x1 : IVec S2x24576 32) (x2 : FVec Ideal S1x256 .f32)
    (x3 : FVec Ideal S1 .f32) (h : Cert.GateSpec.InRange x1) :
    gated (scores (F := Ideal) (rowDot x0 (wHalf0 x2)) (rowDot x0 (wHalf1 x2)) (edgeRow0 x1) (edgeRow1 x1) x3)
      (take3 (F := Ideal) x0 (edgeRow0 x1)) = Cert.GateSpec.msg x0 x1 x2 x3 := by
  funext i
  obtain ⟨b, e, d, rfl⟩ : ∃ b e d, i = ix3 b e d := ⟨_, _, _, eq_ix3 i⟩
  show take3 (F := Ideal) x0 (edgeRow0 x1) (ix3 b e d) * Ideal.logistic (scores (F := Ideal) (rowDot x0 (wHalf0 x2))
    (rowDot x0 (wHalf1 x2)) (edgeRow0 x1) (edgeRow1 x1) x3 (ix2 b e)) = _
  rw [take3_src x1 h, kernel_score x0 x1 x2 x3 h b e]
  rfl

end Cert.KernelIdeal.MsgValue

end
-- ==== Proof.KernelValue.lean ====
/-
  The idealized kernel's result as one function of its arguments.

  The result buffer ends at the accumulation, at the destination words, of the gating region's output; that output
  is the rows taken at the source words, each entry times the logistic function of its edge's score; the score is
  the source node's partial score taken at the source word plus the destination node's taken at the destination
  word, plus the bias; and the partial scores are the first region's two output arrays, the rows of `x` against
  the two halves of the weights. With every edge word a node number, that message tensor is the specification's.
-/
import proofs.«156650_j53772990546137_2_alg».proof.Proof.KernelHost
import proofs.«156650_j53772990546137_2_alg».proof.Proof.NodeScores
import proofs.«156650_j53772990546137_2_alg».proof.Proof.GatedRows
import proofs.«156650_j53772990546137_2_alg».proof.Proof.KernelMsg

set_option maxRecDepth 16384

noncomputable section

namespace Cert.KernelIdeal.OutValue

open Cert.KernelIdeal Cert.KernelIdeal.Gen Cert.KernelIdeal.HostValue
open Idealize.ShloMosaic Idealize.ShloMosaic.TcCoe Idealize.SL.Sem

variable (m : (ℓ : Loc nD τ sig) → Buf (Elt Ideal) ℓ) (ρ : Dev nD → PrngReg)

/-- The gating region's output array at its exit. -/
theorem V7_msg (c : Dev nD) :
    V7 m ρ c main_v14 = Cert.KernelIdeal.GateValue.gated (V6 m ρ c main_v12) (V6 m ρ c main_v13) :=
  (W7_arr m ρ c 2).trans (Cert.KernelIdeal.GateValue.gated_rows (V6 m ρ) c)

/-- The first region's two output arrays at its exit. -/
theorem V2_gs (c : Dev nD) :
    V2 m ρ c main_v6_0 = Cert.KernelIdeal.RegionValue.rowDot (V1 m ρ c main_arg0) (V1 m ρ c main_v4) :=
  (W2_arr m ρ c 3).trans (Cert.KernelIdeal.RegionValue.node_scores_src (V1 m ρ) c)
theorem V2_gd (c : Dev nD) :
    V2 m ρ c main_v6_1 = Cert.KernelIdeal.RegionValue.rowDot (V1 m ρ c main_arg0) (V1 m ρ c main_v5) :=
  (W2_arr m ρ c 4).trans (Cert.KernelIdeal.RegionValue.node_scores_dst (V1 m ρ) c)

/-- The result: the specification's messages accumulated at the destination words. -/
theorem out_eq (c : Dev nD) (h : Cert.GateSpec.InRange (m ((c : Thread nD τ).loc main_arg1))) :
    W8 m ρ c (Proc.devRef .tc main_v22)
      = accum (F := Ideal) (edgeRow1 (m ((c : Thread nD τ).loc main_arg1)))
          (Cert.GateSpec.msg (m ((c : Thread nD τ).loc main_arg0)) (m ((c : Thread nD τ).loc main_arg1))
            (m ((c : Thread nD τ).loc main_arg2)) (m ((c : Thread nD τ).loc main_arg3))) := by
  rw [W8_out, V7_v3, V6_v3, V2_v3, V1_v3, V7_msg, V6_scores, V6_rows, V2_gs, V2_gd, V2_v1, V2_arg3, V2_arg0,
    V1_v1, V1_arg0, V1_arg3, V1_v4, V1_v5, V2_v3, V1_v3]
  rw [Cert.KernelIdeal.MsgValue.kernel_msg _ _ _ _ h]

end Cert.KernelIdeal.OutValue

end
-- ==== Proof.lean ====
/-
  A gated message-passing layer: node features `x : [32, 4096, 128]`, edges `edge_index : [2, 24576]` (row 0 the
  source node of each edge, row 1 its destination), gate weights `W : [1, 256]` and bias `b : [1]`. For a batch
  entry `b`, an edge `e = (s → t)` and a feature `d` the message is
      msg (b, e, d) = x (b, s, d) · σ ( (∑ₖ x (b, s, k) · W (0, k) + ∑ₖ x (b, t, k) · W (0, 128 + k)) + bias ),
  σ the logistic function, and the result accumulates the messages of the edges arriving at each node.

  The reference gathers both end nodes' rows per edge, contracts each with its half of the weights, applies σ as
  1 / (1 + e^(−z)), multiplies and scatter-adds. The kernel contracts every NODE's row with both halves once (a
  first region over blocks of 256 nodes), takes the two scalars per edge, adds them and the bias, and gates the
  gathered source rows in a second region over blocks of 256 edges (the logistic function as one operation: the
  same function on the extended reals), then scatter-adds with the same dimension numbers at the same words.
  A node's partial score is the same finite sum whether the row is gathered before or after the contraction,
  so both message tensors are the specification's (Proof/Spec.lean) entry by entry, with no appeal to finiteness;
  the accumulation is one function applied to equal arguments and is never opened.

  What IS used of the precondition: every edge word is a node number in [0, 4096). Outside that range the two
  programs' index handling differs (the kernel's `take` fills rows of an out-of-range word, the reference's
  indexing clamps the word), so the claim is stated on the domain where the reference's indexing is in range.
-/
import proofs.«156650_j53772990546137_2_alg».proof.Defs
import proofs.«156650_j53772990546137_2_alg».proof.Proof.Gen.Kernel
import proofs.«156650_j53772990546137_2_alg».proof.Proof.Gen.Kernel.Skeleton
import proofs.«156650_j53772990546137_2_alg».proof.Proof.Gen.Kernel.Launch
import proofs.«156650_j53772990546137_2_alg».proof.Proof.Gen.Kernel.Points
import proofs.«156650_j53772990546137_2_alg».proof.Proof.Gen.Kernel.Frame
import proofs.«156650_j53772990546137_2_alg».proof.Proof.Gen.KernelIdeal
import proofs.«156650_j53772990546137_2_alg».proof.Proof.Gen.KernelIdeal.Skeleton
import proofs.«156650_j53772990546137_2_alg».proof.Proof.Gen.KernelIdeal.Launch
import proofs.«156650_j53772990546137_2_alg».proof.Proof.Gen.KernelIdeal.Points
import proofs.«156650_j53772990546137_2_alg».proof.Proof.Gen.KernelIdeal.Frame
import proofs.«156650_j53772990546137_2_alg».proof.Proof.Gen.ReferenceIdeal
import proofs.«156650_j53772990546137_2_alg».proof.Proof.Gen.ReferenceIdeal.Run
import proofs.«156650_j53772990546137_2_alg».proof.Proof.Gen.ReferenceIdeal.Read
import proofs.«156650_j53772990546137_2_alg».proof.Proof.Gen.Pre_finite_inputs
import proofs.«156650_j53772990546137_2_alg».proof.Proof.Spec
import proofs.«156650_j53772990546137_2_alg».proof.Proof.PreRange
import proofs.«156650_j53772990546137_2_alg».proof.Proof.RefMsg
import proofs.«156650_j53772990546137_2_alg».proof.Proof.KernelRun
import proofs.«156650_j53772990546137_2_alg».proof.Proof.KernelValue
import Idealize.ShloMosaic.Adequacy
import Idealize.ShloMosaic.Init

noncomputable section

namespace Cert.Proof

open Idealize.ShloMosaic Idealize.SL.Sem

/-! ## The accumulation is the same function in both programs -/

/-- The kernel's closing accumulation and the reference's are one function of the edge words and the messages:
    the same dimension numbers, the same zero operand, the same normalised destination words. -/
theorem accum_eq (x1 : IVec Cert.KernelIdeal.S2x24576 32) (M : FVec Ideal Cert.KernelIdeal.S32x24576x128 .f32) :
    Cert.KernelIdeal.HostValue.accum (F := Ideal) (Cert.KernelIdeal.HostValue.edgeRow1 x1) M
      = Host.scatterAdd Cert.ReferenceIdeal.scatter_S32x4096x128_S24576x1_S32x24576x128_02_1_1_1
          (Cert.ReferenceIdeal.Read.val_main_v34 (F := Ideal)) (Cert.ReferenceIdeal.Read.val_main_v40 (F := Ideal) x1) M := by
  have e1 : Cert.KernelIdeal.HostValue.nrm (Cert.KernelIdeal.HostValue.edgeRow1 x1)
      = Cert.ReferenceIdeal.Read.val_main_v40 (F := Ideal) x1 := rfl
  have e2 : (broadcastInDim Cert.KernelIdeal.S32x4096x128 ![] Cert.KernelIdeal.Facts₀.bcast_S_S32x4096x128
        (constant (F := Ideal) Cert.KernelIdeal.S_ .f32 0x00000000#32) : FVec Ideal Cert.KernelIdeal.S32x4096x128 .f32)
      = Cert.ReferenceIdeal.Read.val_main_v34 (F := Ideal) := rfl
  have e3 : Cert.KernelIdeal.scatter_S32x4096x128_S24576x1_S32x24576x128_02_1_1_1
      = Cert.ReferenceIdeal.scatter_S32x4096x128_S24576x1_S32x24576x128_02_1_1_1 := rfl
  unfold Cert.KernelIdeal.HostValue.accum
  rw [e1, e2, e3]

/-! ## The claims -/

theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealization is the kernel's own text read on the extended reals. -/
theorem preserves : Cert.preserves_Kernel_KernelIdeal := trivial

/-- At the ideal instance both programs end with the specification's messages accumulated at the destination
    words: the kernel by its run read through the two regions and the host stretches, the reference by its run read
    one operation at a time. -/
theorem algebraic : Cert.algebraic_KernelIdeal_ReferenceIdeal := by
  intro m ρ m' ρ' hpre hagree
  have hR : ∀ c : Dev Cert.KernelIdeal.nD, Cert.GateSpec.InRange
      (m ((c.tc : Thread Cert.KernelIdeal.nD Cert.KernelIdeal.τ).loc Cert.KernelIdeal.main_arg1)) :=
    fun c => Cert.PreRange.inRange_of_pre _ _ _ _ (hpre c)
  refine ⟨fun c => Cert.KernelIdeal.HostValue.accum (F := Ideal)
      (Cert.KernelIdeal.HostValue.edgeRow1 (m ((c.tc : Thread Cert.KernelIdeal.nD Cert.KernelIdeal.τ).loc Cert.KernelIdeal.main_arg1)))
      (Cert.GateSpec.msg (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))), ?_, ?_⟩
  · exact (θ_run Cert.KernelIdeal.defs _ _).mono
      (fun r h c => ⟨(h c).1.trans (Cert.KernelIdeal.OutValue.out_eq m ρ c (hR c)), (h c).2⟩)
      (Cert.KernelIdeal.RunValue.run_out (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v41_eq, (hagree c).1, (hagree c).2.1, (hagree c).2.2.1, (hagree c).2.2.2]
    unfold Cert.ReferenceIdeal.Read.val_main_v41
    rw [Cert.ReferenceIdeal.RefValue.ref_msg _ _ _ _ (hR c)]
    exact (accum_eq _ _).symm

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
